-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096 .f32) (main_arg5 : FVec F S1024x4096 .f32) (main_arg6 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S4096 .f32) (main_arg5 : FVec F S1024x4096 .f32) (main_arg6 : FVec F S1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S1x4096 : Shape := ⟨2, ![1, 4096]⟩
abbrev S1024x1024 : Shape := ⟨2, ![1024, 1024]⟩
abbrev S1x1024 : Shape := ⟨2, ![1, 1024]⟩
abbrev S4096x1024 : Shape := ⟨2, ![4096, 1024]⟩
abbrev S2048x1024 : Shape := ⟨2, ![2048, 1024]⟩

abbrev nBuf : Space → Nat
  | .hbm => 14
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S4096x4096, .bf16⟩
  | .hbm, ⟨8, _⟩ => ⟨S4096x4096, .bf16⟩
  | .hbm, ⟨9, _⟩ => ⟨S1x4096, .f32⟩
  | .hbm, ⟨10, _⟩ => ⟨S4096x4096, .bf16⟩
  | .hbm, ⟨11, _⟩ => ⟨S1024x4096, .bf16⟩
  | .hbm, ⟨12, _⟩ => ⟨S1x1024, .f32⟩
  | .hbm, ⟨13, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S2048x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S2048x1024, .f32⟩
  | .local _ .vmem, ⟨19, _⟩ => ⟨S2048x1024, .f32⟩
  | .local _ .vmem, ⟨20, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  broadcasts_S1x1024_S2048x1024 : S1x1024.Broadcasts S2048x1024
  dot_S1024x1024_S1024x1024_S1024x1024_1_1_0_0_n_n_wf : DotDims.WF S1024x1024 S1024x1024 S1024x1024 [1] [1] [0] [0] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .bf16 = 32 ∨ (Rect.block (s := S4096x4096) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x4096.size a
  hwx1_0 : ∀ i : grid1.Coords, EltTy.bits .bf16 = 32 ∨ (Rect.block (s := S4096x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x4096.size a
  hwx1_1 : ∀ i : grid1.Coords, EltTy.bits .bf16 = 32 ∨ (Rect.block (s := S1024x4096) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S4096x1024.size a
  hwx1_3 : ∀ i : grid1.Coords, EltTy.bits .f32 = 32 ∨ (Rect.block (s := S4096x1024) S2048x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v3) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S1x4096 : Shape := ⟨2, ![1, 4096]⟩
abbrev S4096x1024 : Shape := ⟨2, ![4096, 1024]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x4096_S4096x4096_S4096x4096_1_1_0_0_n_n_wf : DotDims.WF S4096x4096 S4096x4096 S4096x4096 [1] [1] [0] [0] [] []
  dot_S4096x4096_S1024x4096_S4096x1024_1_1_0_0_n_n_wf : DotDims.WF S4096x4096 S1024x4096 S4096x1024 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf
def dot_S4096x4096_S1024x4096_S4096x1024_1_1_0_0_n_n : DotDims S4096x4096 S1024x4096 S4096x1024 where
  lhsContracting := [1]
  rhsContracting := [1]
  lhsNonContracting := [0]
  rhsNonContracting := [0]
  lhsBatch := []
  rhsBatch := []
  wf := dot_S4096x4096_S1024x4096_S4096x1024_1_1_0_0_n_n_wf

class Facts : Prop extends Facts₀ where

variable [Facts]
-- ==== Proof.Kernel.R0Shared.lean ====
/-
  Region 0 (the recurrent cell): what its three control cases share.
  The grid is 4 x 4 x 4 points (row block, column block, contraction block); the last coordinate k runs fastest, so
  point t has k = t mod 4. The body zeroes a 1024 x 1024 accumulator when k = 0, adds the two partial products of the
  k-th column blocks at every point, and at k = 3 stores tanh(accumulator + bias row) into the output block.
  Here: each window's block of its array at a point (at any contents V the region is entered with), the two
  branch conditions as t mod 4 = 0 and t mod 4 = 3, where the output window is idle and where it is written back,
  and the region's scoped state as the accumulator beside the other scoped buffers and the generator register.
-/
import proofs.«114823_j33921651704507_2_alg».proof.Proof.Gen.Kernel.Launch
import proofs.«114823_j33921651704507_2_alg».proof.Proof.Gen.Kernel.Skeleton
import proofs.«114823_j33921651704507_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Blocks

/-- The first branch: the contraction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch: the contraction coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- The output window is idle, and not written back, at the points with k < 3; live at k = 3. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-- One staging buffer of the output window, through which its contents are stated. -/
abbrev VO0_5 : View sig .tc .vmem S1024x1024 .bf16 := (Memref.whole cc0_stg5_0 : Memref sig .tc .vmem S1024x1024 .bf16).view
/-- Each window's current staging memref at point t, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
/-- The accumulator: a whole scoped buffer of the kernel's own, and the view its contents are stated through. -/
abbrev scM0_0 : Memref sig .tc .vmem S1024x1024 .f32 := Memref.whole cc0_scratch0
abbrev VS0_0 : View sig .tc .vmem S1024x1024 .f32 := scM0_0.view

/-- The scoped buffers of the core that are neither a staging buffer of this region nor its accumulator, each whole at
    some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's scoped state: the accumulator at some contents, the other scoped buffers, the generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.Kernel.Hand

end
-- ==== Proof.Kernel.R0RunA.lean ====
/-
  Region 0, control case A: the whole body run once, symbolically — the contraction coordinate is 0: the accumulator is zeroed, then this block's partial products are added; the output buffer is left untouched.
-/
import proofs.«114823_j33921651704507_2_alg».proof.Proof.Kernel.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 0: the accumulator is zeroed, then this block's partial products are added; the output buffer is left untouched. On whole staging memrefs, the inputs' at their contents, it runs to the
    continuation with the inputs' as they were and each buffer it stored into at its stores, as pieces (last first); the
    pieces are what the run finds. -/
noncomputable def kernelRun0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) :
    Σ' (LO : List (View.Piece (Elt F) S1024x1024 .bf16)), { LS0 : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS0)) -∗ K ⟨⟩))
          ⊢ wp frame (wpE (defs₀ (F := F)) Variants.none c none) E (cc0__rnn_kernel i arg3 harg3 arg4 harg4 arg5 harg5 arg6 harg6 arg7 harg7 arg8 harg8 arg9 harg9) K } := by
  refine ⟨[], ?_, fun xi E K => ?run⟩
  case run =>
    simp only [cc0__rnn_kernel_eq_skeleton]; unfold cc0__rnn_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS0

end Cert.Kernel.Hand

end
-- ==== Proof.Kernel.R0RunB.lean ====
/-
  Region 0, control case B: the whole body run once, symbolically — the contraction coordinate is 1 or 2: this block's partial products are added to what the point before left in the accumulator; the output buffer is left untouched.
-/
import proofs.«114823_j33921651704507_2_alg».proof.Proof.Kernel.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 1 or 2: this block's partial products are added to what the point before left in the accumulator; the output buffer is left untouched. On whole staging memrefs, the inputs' at their contents, it runs to the
    continuation with the inputs' as they were and each buffer it stored into at its stores, as pieces (last first); the
    pieces are what the run finds. -/
noncomputable def kernelRun0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) :
    Σ' (LO : List (View.Piece (Elt F) S1024x1024 .bf16)), { LS0 : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS0)) -∗ K ⟨⟩))
          ⊢ wp frame (wpE (defs₀ (F := F)) Variants.none c none) E (cc0__rnn_kernel i arg3 harg3 arg4 harg4 arg5 harg5 arg6 harg6 arg7 harg7 arg8 harg8 arg9 harg9) K } := by
  refine ⟨[], ?_, fun xi E K => ?run⟩
  case run =>
    simp only [cc0__rnn_kernel_eq_skeleton]; unfold cc0__rnn_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfO; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS0

end Cert.Kernel.Hand

end
-- ==== Proof.Kernel.R0RunC.lean ====
/-
  Region 0, control case C: the whole body run once, symbolically — the contraction coordinate is 3, the last: this block's partial products are added to the accumulator and the output block is stored from it.
-/
import proofs.«114823_j33921651704507_2_alg».proof.Proof.Kernel.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 3, the last: this block's partial products are added to the accumulator and the output block is stored from it. On whole staging memrefs, the inputs' at their contents, it runs to the
    continuation with the inputs' as they were and each buffer it stored into at its stores, as pieces (last first); the
    pieces are what the run finds. -/
noncomputable def kernelRun0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) :
    Σ' (LO : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS0)) -∗ K ⟨⟩))
          ⊢ wp frame (wpE (defs₀ (F := F)) Variants.none c none) E (cc0__rnn_kernel i arg3 harg3 arg4 harg4 arg5 harg5 arg6 harg6 arg7 harg7 arg8 harg8 arg9 harg9) K } := by
  refine ⟨?_, ?_, fun E K => ?run⟩
  case run =>
    simp only [cc0__rnn_kernel_eq_skeleton]; unfold cc0__rnn_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; iexact HS0

end Cert.Kernel.Hand

end
-- ==== Proof.Kernel.R0Frame.lean ====
/-
  Region 0: what the accumulator and the output buffer hold after each grid point, and the body obligation.
  A point t has contraction coordinate k = t mod 4. After the point the accumulator holds what the point's case leaves:
  at k = 0 from the zeroed accumulator, at k > 0 from what point t - 1 left (the accumulator is a scoped buffer the
  pipeline never touches, so it is carried from point to point); the output buffer is stored only at k = 3 and is
  written back only there. The region's invariant before a point is therefore: before the first point, any scoped
  state; afterwards, the accumulator at what the point before left, beside the other scoped buffers and the generator
  register. All of it at any contents V the region is entered with, and at any float instance.
-/
import proofs.«114823_j33921651704507_2_alg».proof.Proof.Kernel.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Cases A and B store nothing into the output buffer: a placeholder nothing consults (the window is idle there). -/
def out0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) : Vec F S1024x1024 .bf16 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)
/-- Case A's stores into the accumulator cover it. -/
theorem scover0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (y : S1024x1024.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S1024x1024.size (by sl_kernel_rfl) y
/-- What case A leaves in the accumulator. -/
def sout0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) : Vec F S1024x1024 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

def out0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) : Vec F S1024x1024 .bf16 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)
/-- Case B's store into the accumulator covers it. -/
theorem scover0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) (y : S1024x1024.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S1024x1024.size (by sl_kernel_rfl) y
/-- What case B leaves in the accumulator. -/
def sout0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- Case C's store into the output buffer covers it. -/
theorem cover0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1024x1024.size (by sl_kernel_rfl) y
/-- What case C leaves in the output buffer. -/
def out0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) : Vec F S1024x1024 .bf16 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)
/-- Case C's store into the accumulator covers it. -/
theorem scover0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S1024x1024.size (by sl_kernel_rfl) y
/-- What case C leaves in the accumulator. -/
def sout0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-- THE ACCUMULATION: what the output buffer and the accumulator hold after the body at position n — the case
    n mod 4 selects, run on the point's blocks, from what position n - 1 left in the accumulator. -/
def outsAt0 (c : Dev nD) : (n : ℕ) → n < cfg0.N → Vec F S1024x1024 .bf16 × Vec F S1024x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point any scoped state; afterwards the accumulator at
    what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-- The proof data of the region on core c: its arrays as entered; after the body at point t each input's buffer at
    its block and the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks; t mod 4 says which case the point is in; the
    invariant hands the body the accumulator at what the point before left (at anything at the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    · -- case A
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%dO, HO⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS0]; · iexact HS0
        iintro ⟨H0, H1, H2, H3, H4, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact HO
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%dO, HO⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS0]; · iexists _; iexact HS0
        iintro ⟨H0, H1, H2, H3, H4, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact HO
  · by_cases h1 : t.val % 4 = 3
    · -- case C
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C sout0_C; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%dO, HO⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [HO]; · iexists _; iexact HO
        isplitl [HS0]; · iexact HS0
        iintro ⟨H0, H1, H2, H3, H4, ⟨%eO, HO⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact HO
        ipureintro; exact View.read_writes_of_cover _ _ _ _ _ (cover0_C c _ _ _ _ _ _ _ _ _ _ _ _ _ _ _ _ _ _ _ _ _ _ _)
    · -- case B
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%dO, HO⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS0]; · iexact HS0
        iintro ⟨H0, H1, H2, H3, H4, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact HO

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the scoped state back, the accumulator's contents forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end

end Cert.Kernel.Hand

end
-- ==== Proof.Kernel.R1Shared.lean ====
/-
  Region 1 (the output projection): what its three control cases share.
  The grid is 2 x 4 points (row block of 2048 rows, contraction block of 1024 columns); the contraction coordinate k
  runs fastest, so point t has k = t mod 4. The body zeroes a 2048 x 1024 accumulator when k = 0, adds the partial
  product of the k-th column block at every point, and at k = 3 stores accumulator + bias row into the output block.
  Here: each window's block of its array at a point (at any contents V the region is entered with), the two branch
  conditions as t mod 4 = 0 and t mod 4 = 3, where the output window is idle and where it is written back, and the
  region's scoped state as the accumulator beside the other scoped buffers and the generator register.
-/
import proofs.«114823_j33921651704507_2_alg».proof.Proof.Kernel.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-- The first branch: the contraction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second branch: the contraction coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, at the points with k < 3; live at k = 3. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of the output window, through which its contents are stated. -/
abbrev VO1_3 : View sig .tc .vmem S2048x1024 .f32 := (Memref.whole cc1_stg3_0 : Memref sig .tc .vmem S2048x1024 .f32).view
/-- Each window's current staging memref at point t, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, and the view its contents are stated through. -/
abbrev scM1_0 : Memref sig .tc .vmem S2048x1024 .f32 := Memref.whole cc1_scratch0
abbrev VS1_0 : View sig .tc .vmem S2048x1024 .f32 := scM1_0.view

/-- The scoped buffers of the core that are neither a staging buffer of this region nor its accumulator, each whole at
    some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The region's scoped state: the accumulator at some contents, the other scoped buffers, the generator register. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  have h1 : (Pipeline.ΦA spec1 c : sProp 𝕄) ⊢ iprop(iprop((∃ d, owns (c : Thread nD τ) scM1_0 fullShare d) ∗ others1 c) ∗ (∃ r, prngReg c r)) := by
    unfold Pipeline.ΦA others1; rw [scopedRest1_eq]; simp only [scM1_0, owns_whole]
    iintro ⟨⟨H1, H2, H3, H4, H5, H6, H7, H8, H9, H10, H11, H12, H13, HS⟩, Hg⟩
    isplitl [HS H1 H2 H3 H4 H5 H6 H7 H8 H9 H10 H11 H12 H13]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact Hg
  have h2 : (iprop(iprop((∃ d, owns (c : Thread nD τ) scM1_0 fullShare d) ∗ others1 c) ∗ (∃ r, prngReg c r)) : sProp 𝕄) ⊢ Pipeline.ΦA spec1 c := by
    unfold Pipeline.ΦA others1; rw [scopedRest1_eq]; simp only [scM1_0, owns_whole]
    iintro ⟨⟨HS, H1, H2, H3, H4, H5, H6, H7, H8, H9, H10, H11, H12, H13⟩, Hg⟩
    isplitl [HS H1 H2 H3 H4 H5 H6 H7 H8 H9 H10 H11 H12 H13]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact HS
    iexact Hg
  exact Idealize.SL.BI.Entails.antisymm h1 h2

end Cert.Kernel.Hand

end
-- ==== Proof.Kernel.R1RunA.lean ====
/-
  Region 1, control case A: the whole body run once, symbolically — the contraction coordinate is 0: the accumulator is zeroed, then this block's partial products are added; the output buffer is left untouched.
-/
import proofs.«114823_j33921651704507_2_alg».proof.Proof.Kernel.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 0: the accumulator is zeroed, then this block's partial products are added; the output buffer is left untouched. On whole staging memrefs, the inputs' at their contents, it runs to the
    continuation with the inputs' as they were and each buffer it stored into at its stores, as pieces (last first); the
    pieces are what the run finds. -/
noncomputable def kernelRun1_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) (x2 : Vec F S1x1024 .f32) :
    Σ' (LO : List (View.Piece (Elt F) S2048x1024 .f32)), { LS0 : List (View.Piece (Elt F) S2048x1024 .f32) //
      ∀ (xi : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc1__proj_kernel i arg2 harg2 arg3 harg3 arg4 harg4 arg5 harg5 arg6 harg6) K } := by
  refine ⟨[], ?_, fun xi E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.Kernel.Hand

end
-- ==== Proof.Kernel.R1RunB.lean ====
/-
  Region 1, control case B: the whole body run once, symbolically — the contraction coordinate is 1 or 2: this block's partial products are added to what the point before left in the accumulator; the output buffer is left untouched.
-/
import proofs.«114823_j33921651704507_2_alg».proof.Proof.Kernel.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 1 or 2: this block's partial products are added to what the point before left in the accumulator; the output buffer is left untouched. On whole staging memrefs, the inputs' at their contents, it runs to the
    continuation with the inputs' as they were and each buffer it stored into at its stores, as pieces (last first); the
    pieces are what the run finds. -/
noncomputable def kernelRun1_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) :
    Σ' (LO : List (View.Piece (Elt F) S2048x1024 .f32)), { LS0 : List (View.Piece (Elt F) S2048x1024 .f32) //
      ∀ (xi : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc1__proj_kernel i arg2 harg2 arg3 harg3 arg4 harg4 arg5 harg5 arg6 harg6) K } := by
  refine ⟨[], ?_, fun xi E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hfO; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.Kernel.Hand

end
-- ==== Proof.Kernel.R1RunC.lean ====
/-
  Region 1, control case C: the whole body run once, symbolically — the contraction coordinate is 3, the last: this block's partial products are added to the accumulator and the output block is stored from it.
-/
import proofs.«114823_j33921651704507_2_alg».proof.Proof.Kernel.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 3, the last: this block's partial products are added to the accumulator and the output block is stored from it. On whole staging memrefs, the inputs' at their contents, it runs to the
    continuation with the inputs' as they were and each buffer it stored into at its stores, as pieces (last first); the
    pieces are what the run finds. -/
noncomputable def kernelRun1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) :
    Σ' (LO : List (View.Piece (Elt F) S2048x1024 .f32)), { LS0 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc1__proj_kernel i arg2 harg2 arg3 harg3 arg4 harg4 arg5 harg5 arg6 harg6) K } := by
  refine ⟨?_, ?_, fun E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%dO, %fO, -, HO⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS0

end Cert.Kernel.Hand

end
-- ==== Proof.Kernel.R1Frame.lean ====
/-
  Region 1: what the accumulator and the output buffer hold after each grid point, and the body obligation.
  A point t has contraction coordinate k = t mod 4. After the point the accumulator holds what the point's case leaves:
  at k = 0 from the zeroed accumulator, at k > 0 from what point t - 1 left (the accumulator is a scoped buffer the
  pipeline never touches, so it is carried from point to point); the output buffer is stored only at k = 3 and is
  written back only there. The region's invariant before a point is therefore: before the first point, any scoped
  state; afterwards, the accumulator at what the point before left, beside the other scoped buffers and the generator
  register. All of it at any contents V the region is entered with, and at any float instance.
-/
import proofs.«114823_j33921651704507_2_alg».proof.Proof.Kernel.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Cases A and B store nothing into the output buffer: a placeholder nothing consults (the window is idle there). -/
def out1_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) (x2 : Vec F S1x1024 .f32) : Vec F S2048x1024 .f32 :=
  VO1_3.read (Elt F) (VO1_3.writes (Elt F) VO1_3.junk (kernelRun1_A c i arg2 harg2 arg3 harg3 arg4 harg4 arg5 harg5 arg6 harg6 hc0 hc1 x0 x1 x2).1)
/-- Case A's stores into the accumulator cover it. -/
theorem scover1_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) (x2 : Vec F S1x1024 .f32) (y : S2048x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x1024.size (by sl_kernel_rfl) y
/-- What case A leaves in the accumulator. -/
def sout1_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) (x2 : Vec F S1x1024 .f32) : Vec F S2048x1024 .f32 :=
  VS1_0.read (Elt F) (VS1_0.writes (Elt F) VS1_0.junk (kernelRun1_A c i arg2 harg2 arg3 harg3 arg4 harg4 arg5 harg5 arg6 harg6 hc0 hc1 x0 x1 x2).2.1)

def out1_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) : Vec F S2048x1024 .f32 :=
  VO1_3.read (Elt F) (VO1_3.writes (Elt F) VO1_3.junk (kernelRun1_B c i arg2 harg2 arg3 harg3 arg4 harg4 arg5 harg5 arg6 harg6 hc0 hc1 x0 x1 x2 xs0).1)
/-- Case B's store into the accumulator covers it. -/
theorem scover1_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x1024.size (by sl_kernel_rfl) y
/-- What case B leaves in the accumulator. -/
def sout1_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) : Vec F S2048x1024 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's store into the output buffer covers it. -/
theorem cover1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x1024.size (by sl_kernel_rfl) y
/-- What case C leaves in the output buffer. -/
def out1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) : Vec F S2048x1024 .f32 :=
  VO1_3.read (Elt F) (VO1_3.writes (Elt F) VO1_3.junk (kernelRun1_C c i arg2 harg2 arg3 harg3 arg4 harg4 arg5 harg5 arg6 harg6 hc0 hc1 x0 x1 x2 xs0).1)
/-- Case C's store into the accumulator covers it. -/
theorem scover1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x1024.size (by sl_kernel_rfl) y
/-- What case C leaves in the accumulator. -/
def sout1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) : Vec F S2048x1024 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- THE ACCUMULATION: what the output buffer and the accumulator hold after the body at position n — the case
    n mod 4 selects, run on the point's blocks, from what position n - 1 left in the accumulator. -/
def outsAt1 (c : Dev nD) : (n : ℕ) → n < cfg1.N → Vec F S2048x1024 .f32 × Vec F S2048x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point any scoped state; afterwards the accumulator at
    what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-- The proof data of the region on core c: its arrays as entered; after the body at point t each input's buffer at
    its block and the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; t mod 4 says which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 4 = 0
  · by_cases h1 : t.val % 4 = 3
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%dO, HO⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [HO]; · iexact HO
        isplitl [HS0]; · iexact HS0
        iintro ⟨H0, H1, H2, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact HO
      ·
        rw [PhiS1_castSucc V c t, PhiS1_pos V c _ _ hz]
        iintro ⟨⟨⟨HS0, HR⟩, Hg⟩, Ho, ⟨%d0, H0⟩, ⟨%d1, H1⟩, ⟨%d2, H2⟩, ⟨%dO, HO⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [HO]; · iexact HO
        isplitl [HS0]; · iexists _; iexact HS0
        iintro ⟨H0, H1, H2, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact HO
  · by_cases h1 : t.val % 4 = 3
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C sout1_C; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%dO, HO⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [HO]; · iexists _; iexact HO
        isplitl [HS0]; · iexact HS0
        iintro ⟨H0, H1, H2, ⟨%eO, HO⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact HO
        ipureintro; exact View.read_writes_of_cover _ _ _ _ _ (cover1_C c _ _ _ _ _ _ _ _ _ _ _ _ _ _ _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%dO, HO⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [HO]; · iexact HO
        isplitl [HS0]; · iexact HS0
        iintro ⟨H0, H1, H2, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact HO

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the scoped state back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 8 := N_1; omega)

end

end Cert.Kernel.Hand

end
-- ==== Proof.Kernel.Run.lean ====
/-
  The whole program as four segments: three host operations (the two weight matrices rounded to bf16, the bias
  reshaped to a row), the recurrent-cell region, two host operations (the output weights rounded, the output bias
  reshaped), the projection region. The contents of every unscoped buffer at each boundary are a fold from the launch
  memory: a host stretch applies its operations; a region leaves its arrays at what its write-backs leave and every other
  buffer as entered. Every weakly fair execution terminates with every unscoped buffer at the last boundary's contents;
  no host operation and no region writes an argument, so each argument ends as launched. At any float instance.
-/
import proofs.«114823_j33921651704507_2_alg».proof.Proof.Kernel.R0Frame
import proofs.«114823_j33921651704507_2_alg».proof.Proof.Kernel.R1Frame
import proofs.«114823_j33921651704507_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! Each argument ends as launched: region 1 stages none; the second host stretch writes none; region 0 reads x and
    hidden through input windows and bypasses the others; the first host stretch writes none. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := (W2_arr m c 2).trans (((dat0 (V1 m) c).arrAt_in 2 rfl _).trans (A_eq0 (V1 m) c 2))
    _ = W0 m c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

/-- The class invariant of region 0 from the generator register, anything, and the scoped buffers; and back. -/
theorem phiA_in0 (c : Dev nD) (P : sProp 𝕄) :
    (iprop((∃ r, prngReg c r) ∗ P ∗ Pipeline.scopedRest spec0 c) : sProp 𝕄) ⊢ Pipeline.ΦA spec0 c := by
  unfold Pipeline.ΦA
  iintro ⟨Hp, -, Hr⟩
  isplitl [Hr]; · iexact Hr
  iexact Hp
theorem phiA_out0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

/-- The class invariant of region 1 from the generator register, anything, and the scoped buffers; and back. -/
theorem phiA_in1 (c : Dev nD) (P : sProp 𝕄) :
    (iprop((∃ r, prngReg c r) ∗ P ∗ Pipeline.scopedRest spec1 c) : sProp 𝕄) ⊢ Pipeline.ΦA spec1 c := by
  unfold Pipeline.ΦA
  iintro ⟨Hp, -, Hr⟩
  isplitl [Hr]; · iexact Hr
  iexact Hp
theorem phiA_out1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- The prefetched tables' admissible contents: neither pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state: entered with every unscoped buffer at the contents before it, left with them at
    the contents after it. Its arrays are split out of the unscoped buffers at entry and put back at the exit
    contents; the generator register and the scoped buffers go into the region's invariant and come back; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in0 c _).trans (hin0 (V1 m) c)
  hout c := by
    rw [Pipeline.ownSems0_none]
    exact (hout0 (V1 m) c).trans (phiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers at entry and put back at the exit
    contents; the generator register and the scoped buffers go into the region's invariant and come back; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 c _).trans (hin1 (V3 m) c)
  hout c := by
    rw [Pipeline.ownSems0_none]
    exact (hout1 (V3 m) c).trans (phiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every execution terminates, nothing faulting, and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

end Cert.Kernel.Hand

end
-- ==== Proof.KernelIdeal.R0Shared.lean ====
/-
  Region 0 (the recurrent cell): what its three control cases share.
  The grid is 4 x 4 x 4 points (row block, column block, contraction block); the last coordinate k runs fastest, so
  point t has k = t mod 4. The body zeroes a 1024 x 1024 accumulator when k = 0, adds the two partial products of the
  k-th column blocks at every point, and at k = 3 stores tanh(accumulator + bias row) into the output block.
  Here: each window's block of its array at a point (at any contents V the region is entered with), the two
  branch conditions as t mod 4 = 0 and t mod 4 = 3, where the output window is idle and where it is written back,
  and the region's scoped state as the accumulator beside the other scoped buffers and the generator register.
-/
import proofs.«114823_j33921651704507_2_alg».proof.Proof.Gen.KernelIdeal.Launch
import proofs.«114823_j33921651704507_2_alg».proof.Proof.Gen.KernelIdeal.Skeleton
import proofs.«114823_j33921651704507_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Blocks

/-- The first branch: the contraction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch: the contraction coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- The output window is idle, and not written back, at the points with k < 3; live at k = 3. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-- One staging buffer of the output window, through which its contents are stated. -/
abbrev VO0_5 : View sig .tc .vmem S1024x1024 .bf16 := (Memref.whole cc0_stg5_0 : Memref sig .tc .vmem S1024x1024 .bf16).view
/-- Each window's current staging memref at point t, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
/-- The accumulator: a whole scoped buffer of the kernel's own, and the view its contents are stated through. -/
abbrev scM0_0 : Memref sig .tc .vmem S1024x1024 .f32 := Memref.whole cc0_scratch0
abbrev VS0_0 : View sig .tc .vmem S1024x1024 .f32 := scM0_0.view

/-- The scoped buffers of the core that are neither a staging buffer of this region nor its accumulator, each whole at
    some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's scoped state: the accumulator at some contents, the other scoped buffers, the generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.KernelIdeal.Hand

end
-- ==== Proof.KernelIdeal.R0RunA.lean ====
/-
  Region 0, control case A: the whole body run once, symbolically — the contraction coordinate is 0: the accumulator is zeroed, then this block's partial products are added; the output buffer is left untouched.
-/
import proofs.«114823_j33921651704507_2_alg».proof.Proof.KernelIdeal.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 0: the accumulator is zeroed, then this block's partial products are added; the output buffer is left untouched. On whole staging memrefs, the inputs' at their contents, it runs to the
    continuation with the inputs' as they were and each buffer it stored into at its stores, as pieces (last first); the
    pieces are what the run finds. -/
noncomputable def kernelRun0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) :
    Σ' (LO : List (View.Piece (Elt F) S1024x1024 .bf16)), { LS0 : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS0)) -∗ K ⟨⟩))
          ⊢ wp frame (wpE (defs₀ (F := F)) Variants.none c none) E (cc0__rnn_kernel i arg3 harg3 arg4 harg4 arg5 harg5 arg6 harg6 arg7 harg7 arg8 harg8 arg9 harg9) K } := by
  refine ⟨[], ?_, fun xi E K => ?run⟩
  case run =>
    simp only [cc0__rnn_kernel_eq_skeleton]; unfold cc0__rnn_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS0

end Cert.KernelIdeal.Hand

end
-- ==== Proof.KernelIdeal.R0RunB.lean ====
/-
  Region 0, control case B: the whole body run once, symbolically — the contraction coordinate is 1 or 2: this block's partial products are added to what the point before left in the accumulator; the output buffer is left untouched.
-/
import proofs.«114823_j33921651704507_2_alg».proof.Proof.KernelIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 1 or 2: this block's partial products are added to what the point before left in the accumulator; the output buffer is left untouched. On whole staging memrefs, the inputs' at their contents, it runs to the
    continuation with the inputs' as they were and each buffer it stored into at its stores, as pieces (last first); the
    pieces are what the run finds. -/
noncomputable def kernelRun0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) :
    Σ' (LO : List (View.Piece (Elt F) S1024x1024 .bf16)), { LS0 : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS0)) -∗ K ⟨⟩))
          ⊢ wp frame (wpE (defs₀ (F := F)) Variants.none c none) E (cc0__rnn_kernel i arg3 harg3 arg4 harg4 arg5 harg5 arg6 harg6 arg7 harg7 arg8 harg8 arg9 harg9) K } := by
  refine ⟨[], ?_, fun xi E K => ?run⟩
  case run =>
    simp only [cc0__rnn_kernel_eq_skeleton]; unfold cc0__rnn_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfO; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS0

end Cert.KernelIdeal.Hand

end
-- ==== Proof.KernelIdeal.R0RunC.lean ====
/-
  Region 0, control case C: the whole body run once, symbolically — the contraction coordinate is 3, the last: this block's partial products are added to the accumulator and the output block is stored from it.
-/
import proofs.«114823_j33921651704507_2_alg».proof.Proof.KernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 3, the last: this block's partial products are added to the accumulator and the output block is stored from it. On whole staging memrefs, the inputs' at their contents, it runs to the
    continuation with the inputs' as they were and each buffer it stored into at its stores, as pieces (last first); the
    pieces are what the run finds. -/
noncomputable def kernelRun0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) :
    Σ' (LO : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS0)) -∗ K ⟨⟩))
          ⊢ wp frame (wpE (defs₀ (F := F)) Variants.none c none) E (cc0__rnn_kernel i arg3 harg3 arg4 harg4 arg5 harg5 arg6 harg6 arg7 harg7 arg8 harg8 arg9 harg9) K } := by
  refine ⟨?_, ?_, fun E K => ?run⟩
  case run =>
    simp only [cc0__rnn_kernel_eq_skeleton]; unfold cc0__rnn_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; iexact HS0

end Cert.KernelIdeal.Hand

end
-- ==== Proof.KernelIdeal.R0Frame.lean ====
/-
  Region 0: what the accumulator and the output buffer hold after each grid point, and the body obligation.
  A point t has contraction coordinate k = t mod 4. After the point the accumulator holds what the point's case leaves:
  at k = 0 from the zeroed accumulator, at k > 0 from what point t - 1 left (the accumulator is a scoped buffer the
  pipeline never touches, so it is carried from point to point); the output buffer is stored only at k = 3 and is
  written back only there. The region's invariant before a point is therefore: before the first point, any scoped
  state; afterwards, the accumulator at what the point before left, beside the other scoped buffers and the generator
  register. All of it at any contents V the region is entered with, and at any float instance.
-/
import proofs.«114823_j33921651704507_2_alg».proof.Proof.KernelIdeal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Cases A and B store nothing into the output buffer: a placeholder nothing consults (the window is idle there). -/
def out0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) : Vec F S1024x1024 .bf16 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)
/-- Case A's stores into the accumulator cover it. -/
theorem scover0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (y : S1024x1024.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S1024x1024.size (by sl_kernel_rfl) y
/-- What case A leaves in the accumulator. -/
def sout0_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) : Vec F S1024x1024 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

def out0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) : Vec F S1024x1024 .bf16 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)
/-- Case B's store into the accumulator covers it. -/
theorem scover0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) (y : S1024x1024.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S1024x1024.size (by sl_kernel_rfl) y
/-- What case B leaves in the accumulator. -/
def sout0_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- Case C's store into the output buffer covers it. -/
theorem cover0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1024x1024.size (by sl_kernel_rfl) y
/-- What case C leaves in the output buffer. -/
def out0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) : Vec F S1024x1024 .bf16 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)
/-- Case C's store into the accumulator covers it. -/
theorem scover0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S1024x1024.size (by sl_kernel_rfl) y
/-- What case C leaves in the accumulator. -/
def sout0_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-- THE ACCUMULATION: what the output buffer and the accumulator hold after the body at position n — the case
    n mod 4 selects, run on the point's blocks, from what position n - 1 left in the accumulator. -/
def outsAt0 (c : Dev nD) : (n : ℕ) → n < cfg0.N → Vec F S1024x1024 .bf16 × Vec F S1024x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point any scoped state; afterwards the accumulator at
    what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-- The proof data of the region on core c: its arrays as entered; after the body at point t each input's buffer at
    its block and the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks; t mod 4 says which case the point is in; the
    invariant hands the body the accumulator at what the point before left (at anything at the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    · -- case A
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%dO, HO⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS0]; · iexact HS0
        iintro ⟨H0, H1, H2, H3, H4, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact HO
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%dO, HO⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS0]; · iexists _; iexact HS0
        iintro ⟨H0, H1, H2, H3, H4, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact HO
  · by_cases h1 : t.val % 4 = 3
    · -- case C
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C sout0_C; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%dO, HO⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [HO]; · iexists _; iexact HO
        isplitl [HS0]; · iexact HS0
        iintro ⟨H0, H1, H2, H3, H4, ⟨%eO, HO⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact HO
        ipureintro; exact View.read_writes_of_cover _ _ _ _ _ (cover0_C c _ _ _ _ _ _ _ _ _ _ _ _ _ _ _ _ _ _ _ _ _ _ _)
    · -- case B
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%dO, HO⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [HO]; · iexact HO
        isplitl [HS0]; · iexact HS0
        iintro ⟨H0, H1, H2, H3, H4, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact HO

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the scoped state back, the accumulator's contents forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end

end Cert.KernelIdeal.Hand

end
-- ==== Proof.KernelIdeal.R1Shared.lean ====
/-
  Region 1 (the output projection): what its three control cases share.
  The grid is 2 x 4 points (row block of 2048 rows, contraction block of 1024 columns); the contraction coordinate k
  runs fastest, so point t has k = t mod 4. The body zeroes a 2048 x 1024 accumulator when k = 0, adds the partial
  product of the k-th column block at every point, and at k = 3 stores accumulator + bias row into the output block.
  Here: each window's block of its array at a point (at any contents V the region is entered with), the two branch
  conditions as t mod 4 = 0 and t mod 4 = 3, where the output window is idle and where it is written back, and the
  region's scoped state as the accumulator beside the other scoped buffers and the generator register.
-/
import proofs.«114823_j33921651704507_2_alg».proof.Proof.KernelIdeal.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-- The first branch: the contraction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second branch: the contraction coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, at the points with k < 3; live at k = 3. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of the output window, through which its contents are stated. -/
abbrev VO1_3 : View sig .tc .vmem S2048x1024 .f32 := (Memref.whole cc1_stg3_0 : Memref sig .tc .vmem S2048x1024 .f32).view
/-- Each window's current staging memref at point t, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, and the view its contents are stated through. -/
abbrev scM1_0 : Memref sig .tc .vmem S2048x1024 .f32 := Memref.whole cc1_scratch0
abbrev VS1_0 : View sig .tc .vmem S2048x1024 .f32 := scM1_0.view

/-- The scoped buffers of the core that are neither a staging buffer of this region nor its accumulator, each whole at
    some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The region's scoped state: the accumulator at some contents, the other scoped buffers, the generator register. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  have h1 : (Pipeline.ΦA spec1 c : sProp 𝕄) ⊢ iprop(iprop((∃ d, owns (c : Thread nD τ) scM1_0 fullShare d) ∗ others1 c) ∗ (∃ r, prngReg c r)) := by
    unfold Pipeline.ΦA others1; rw [scopedRest1_eq]; simp only [scM1_0, owns_whole]
    iintro ⟨⟨H1, H2, H3, H4, H5, H6, H7, H8, H9, H10, H11, H12, H13, HS⟩, Hg⟩
    isplitl [HS H1 H2 H3 H4 H5 H6 H7 H8 H9 H10 H11 H12 H13]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact Hg
  have h2 : (iprop(iprop((∃ d, owns (c : Thread nD τ) scM1_0 fullShare d) ∗ others1 c) ∗ (∃ r, prngReg c r)) : sProp 𝕄) ⊢ Pipeline.ΦA spec1 c := by
    unfold Pipeline.ΦA others1; rw [scopedRest1_eq]; simp only [scM1_0, owns_whole]
    iintro ⟨⟨HS, H1, H2, H3, H4, H5, H6, H7, H8, H9, H10, H11, H12, H13⟩, Hg⟩
    isplitl [HS H1 H2 H3 H4 H5 H6 H7 H8 H9 H10 H11 H12 H13]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact HS
    iexact Hg
  exact Idealize.SL.BI.Entails.antisymm h1 h2

end Cert.KernelIdeal.Hand

end
-- ==== Proof.KernelIdeal.R1RunA.lean ====
/-
  Region 1, control case A: the whole body run once, symbolically — the contraction coordinate is 0: the accumulator is zeroed, then this block's partial products are added; the output buffer is left untouched.
-/
import proofs.«114823_j33921651704507_2_alg».proof.Proof.KernelIdeal.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 0: the accumulator is zeroed, then this block's partial products are added; the output buffer is left untouched. On whole staging memrefs, the inputs' at their contents, it runs to the
    continuation with the inputs' as they were and each buffer it stored into at its stores, as pieces (last first); the
    pieces are what the run finds. -/
noncomputable def kernelRun1_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) (x2 : Vec F S1x1024 .f32) :
    Σ' (LO : List (View.Piece (Elt F) S2048x1024 .f32)), { LS0 : List (View.Piece (Elt F) S2048x1024 .f32) //
      ∀ (xi : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc1__proj_kernel i arg2 harg2 arg3 harg3 arg4 harg4 arg5 harg5 arg6 harg6) K } := by
  refine ⟨[], ?_, fun xi E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.KernelIdeal.Hand

end
-- ==== Proof.KernelIdeal.R1RunB.lean ====
/-
  Region 1, control case B: the whole body run once, symbolically — the contraction coordinate is 1 or 2: this block's partial products are added to what the point before left in the accumulator; the output buffer is left untouched.
-/
import proofs.«114823_j33921651704507_2_alg».proof.Proof.KernelIdeal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 1 or 2: this block's partial products are added to what the point before left in the accumulator; the output buffer is left untouched. On whole staging memrefs, the inputs' at their contents, it runs to the
    continuation with the inputs' as they were and each buffer it stored into at its stores, as pieces (last first); the
    pieces are what the run finds. -/
noncomputable def kernelRun1_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) :
    Σ' (LO : List (View.Piece (Elt F) S2048x1024 .f32)), { LS0 : List (View.Piece (Elt F) S2048x1024 .f32) //
      ∀ (xi : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc1__proj_kernel i arg2 harg2 arg3 harg3 arg4 harg4 arg5 harg5 arg6 harg6) K } := by
  refine ⟨[], ?_, fun xi E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hfO; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.KernelIdeal.Hand

end
-- ==== Proof.KernelIdeal.R1RunC.lean ====
/-
  Region 1, control case C: the whole body run once, symbolically — the contraction coordinate is 3, the last: this block's partial products are added to the accumulator and the output block is stored from it.
-/
import proofs.«114823_j33921651704507_2_alg».proof.Proof.KernelIdeal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case where the contraction coordinate is 3, the last: this block's partial products are added to the accumulator and the output block is stored from it. On whole staging memrefs, the inputs' at their contents, it runs to the
    continuation with the inputs' as they were and each buffer it stored into at its stores, as pieces (last first); the
    pieces are what the run finds. -/
noncomputable def kernelRun1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) :
    Σ' (LO : List (View.Piece (Elt F) S2048x1024 .f32)), { LS0 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc1__proj_kernel i arg2 harg2 arg3 harg3 arg4 harg4 arg5 harg5 arg6 harg6) K } := by
  refine ⟨?_, ?_, fun E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%dO, %fO, -, HO⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS0

end Cert.KernelIdeal.Hand

end
-- ==== Proof.KernelIdeal.R1Frame.lean ====
/-
  Region 1: what the accumulator and the output buffer hold after each grid point, and the body obligation.
  A point t has contraction coordinate k = t mod 4. After the point the accumulator holds what the point's case leaves:
  at k = 0 from the zeroed accumulator, at k > 0 from what point t - 1 left (the accumulator is a scoped buffer the
  pipeline never touches, so it is carried from point to point); the output buffer is stored only at k = 3 and is
  written back only there. The region's invariant before a point is therefore: before the first point, any scoped
  state; afterwards, the accumulator at what the point before left, beside the other scoped buffers and the generator
  register. All of it at any contents V the region is entered with, and at any float instance.
-/
import proofs.«114823_j33921651704507_2_alg».proof.Proof.KernelIdeal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Cases A and B store nothing into the output buffer: a placeholder nothing consults (the window is idle there). -/
def out1_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) (x2 : Vec F S1x1024 .f32) : Vec F S2048x1024 .f32 :=
  VO1_3.read (Elt F) (VO1_3.writes (Elt F) VO1_3.junk (kernelRun1_A c i arg2 harg2 arg3 harg3 arg4 harg4 arg5 harg5 arg6 harg6 hc0 hc1 x0 x1 x2).1)
/-- Case A's stores into the accumulator cover it. -/
theorem scover1_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) (x2 : Vec F S1x1024 .f32) (y : S2048x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x1024.size (by sl_kernel_rfl) y
/-- What case A leaves in the accumulator. -/
def sout1_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) (x2 : Vec F S1x1024 .f32) : Vec F S2048x1024 .f32 :=
  VS1_0.read (Elt F) (VS1_0.writes (Elt F) VS1_0.junk (kernelRun1_A c i arg2 harg2 arg3 harg3 arg4 harg4 arg5 harg5 arg6 harg6 hc0 hc1 x0 x1 x2).2.1)

def out1_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) : Vec F S2048x1024 .f32 :=
  VO1_3.read (Elt F) (VO1_3.writes (Elt F) VO1_3.junk (kernelRun1_B c i arg2 harg2 arg3 harg3 arg4 harg4 arg5 harg5 arg6 harg6 hc0 hc1 x0 x1 x2 xs0).1)
/-- Case B's store into the accumulator covers it. -/
theorem scover1_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x1024.size (by sl_kernel_rfl) y
/-- What case B leaves in the accumulator. -/
def sout1_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) : Vec F S2048x1024 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's store into the output buffer covers it. -/
theorem cover1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x1024.size (by sl_kernel_rfl) y
/-- What case C leaves in the output buffer. -/
def out1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) : Vec F S2048x1024 .f32 :=
  VO1_3.read (Elt F) (VO1_3.writes (Elt F) VO1_3.junk (kernelRun1_C c i arg2 harg2 arg3 harg3 arg4 harg4 arg5 harg5 arg6 harg6 hc0 hc1 x0 x1 x2 xs0).1)
/-- Case C's store into the accumulator covers it. -/
theorem scover1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x1024.size (by sl_kernel_rfl) y
/-- What case C leaves in the accumulator. -/
def sout1_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) : Vec F S2048x1024 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- THE ACCUMULATION: what the output buffer and the accumulator hold after the body at position n — the case
    n mod 4 selects, run on the point's blocks, from what position n - 1 left in the accumulator. -/
def outsAt1 (c : Dev nD) : (n : ℕ) → n < cfg1.N → Vec F S2048x1024 .f32 × Vec F S2048x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point any scoped state; afterwards the accumulator at
    what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-- The proof data of the region on core c: its arrays as entered; after the body at point t each input's buffer at
    its block and the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; t mod 4 says which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 4 = 0
  · by_cases h1 : t.val % 4 = 3
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%dO, HO⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [HO]; · iexact HO
        isplitl [HS0]; · iexact HS0
        iintro ⟨H0, H1, H2, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact HO
      ·
        rw [PhiS1_castSucc V c t, PhiS1_pos V c _ _ hz]
        iintro ⟨⟨⟨HS0, HR⟩, Hg⟩, Ho, ⟨%d0, H0⟩, ⟨%d1, H1⟩, ⟨%d2, H2⟩, ⟨%dO, HO⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [HO]; · iexact HO
        isplitl [HS0]; · iexists _; iexact HS0
        iintro ⟨H0, H1, H2, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact HO
  · by_cases h1 : t.val % 4 = 3
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C sout1_C; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%dO, HO⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [HO]; · iexists _; iexact HO
        isplitl [HS0]; · iexact HS0
        iintro ⟨H0, H1, H2, ⟨%eO, HO⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact HO
        ipureintro; exact View.read_writes_of_cover _ _ _ _ _ (cover1_C c _ _ _ _ _ _ _ _ _ _ _ _ _ _ _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%dO, HO⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [HO]; · iexact HO
        isplitl [HS0]; · iexact HS0
        iintro ⟨H0, H1, H2, HO, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact HO

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the scoped state back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 8 := N_1; omega)

end

end Cert.KernelIdeal.Hand

end
-- ==== Proof.KernelIdeal.Run.lean ====
/-
  The whole program as four segments: three host operations (the two weight matrices rounded to bf16, the bias
  reshaped to a row), the recurrent-cell region, two host operations (the output weights rounded, the output bias
  reshaped), the projection region. The contents of every unscoped buffer at each boundary are a fold from the launch
  memory: a host stretch applies its operations; a region leaves its arrays at what its write-backs leave and every other
  buffer as entered. Every weakly fair execution terminates with every unscoped buffer at the last boundary's contents;
  no host operation and no region writes an argument, so each argument ends as launched. At any float instance.
-/
import proofs.«114823_j33921651704507_2_alg».proof.Proof.KernelIdeal.R0Frame
import proofs.«114823_j33921651704507_2_alg».proof.Proof.KernelIdeal.R1Frame
import proofs.«114823_j33921651704507_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! Each argument ends as launched: region 1 stages none; the second host stretch writes none; region 0 reads x and
    hidden through input windows and bypasses the others; the first host stretch writes none. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := (W2_arr m c 2).trans (((dat0 (V1 m) c).arrAt_in 2 rfl _).trans (A_eq0 (V1 m) c 2))
    _ = W0 m c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

/-- The class invariant of region 0 from the generator register, anything, and the scoped buffers; and back. -/
theorem phiA_in0 (c : Dev nD) (P : sProp 𝕄) :
    (iprop((∃ r, prngReg c r) ∗ P ∗ Pipeline.scopedRest spec0 c) : sProp 𝕄) ⊢ Pipeline.ΦA spec0 c := by
  unfold Pipeline.ΦA
  iintro ⟨Hp, -, Hr⟩
  isplitl [Hr]; · iexact Hr
  iexact Hp
theorem phiA_out0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

/-- The class invariant of region 1 from the generator register, anything, and the scoped buffers; and back. -/
theorem phiA_in1 (c : Dev nD) (P : sProp 𝕄) :
    (iprop((∃ r, prngReg c r) ∗ P ∗ Pipeline.scopedRest spec1 c) : sProp 𝕄) ⊢ Pipeline.ΦA spec1 c := by
  unfold Pipeline.ΦA
  iintro ⟨Hp, -, Hr⟩
  isplitl [Hr]; · iexact Hr
  iexact Hp
theorem phiA_out1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- The prefetched tables' admissible contents: neither pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state: entered with every unscoped buffer at the contents before it, left with them at
    the contents after it. Its arrays are split out of the unscoped buffers at entry and put back at the exit
    contents; the generator register and the scoped buffers go into the region's invariant and come back; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in0 c _).trans (hin0 (V1 m) c)
  hout c := by
    rw [Pipeline.ownSems0_none]
    exact (hout0 (V1 m) c).trans (phiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers at entry and put back at the exit
    contents; the generator register and the scoped buffers go into the region's invariant and come back; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 c _).trans (hin1 (V3 m) c)
  hout c := by
    rw [Pipeline.ownSems0_none]
    exact (hout1 (V3 m) c).trans (phiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every execution terminates, nothing faulting, and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

end Cert.KernelIdeal.Hand

end
-- ==== Proof.LibBlockAcc.lean ====
/-
  Block-by-block accumulation of a long sum, over any commutative additive monoid.

  A sum over the 4096 indices of `Fin 4096` can be taken in four consecutive blocks of 1024 indices each:
  the index `k` is `kb * 1024 + c` for exactly one block number `kb < 4` and one offset `c < 1024`, so the
  double sum over `(kb, c)` is the whole sum (`sum_blocks4`). An accumulator that starts at zero and adds the
  four block sums one after another, left-nested, therefore holds the whole sum at the end (`acc4'`,
  `acc4'_blocks`); and when each step adds the block sums of TWO families at once, the accumulator ends at the
  sum of the two whole sums (`acc4`, `acc4_blocks`). Only commutativity and associativity of `+` and
  `0 + x = x` are used, so the statements hold in the extended reals as they stand.
-/
import Mathlib.Algebra.BigOperators.Fin
import Mathlib.Tactic.Abel

open scoped BigOperators

namespace Cert.Lib

variable {M : Type*} [AddCommMonoid M]

/-- A sum over `Fin 4096` taken block by block: four blocks of 1024 consecutive indices, the index of offset
    `c` in block `kb` being `kb * 1024 + c`. The pairs `(kb, c)` are in bijection with `Fin 4096` by that
    formula, so the double sum is the whole sum. -/
theorem sum_blocks4 (f : Fin 4096 → M) :
    (∑ kb : Fin 4, ∑ c : Fin 1024, f ⟨kb.val * 1024 + c.val, by omega⟩) = ∑ k : Fin 4096, f k := by
  have e := Fintype.sum_equiv (finProdFinEquiv (m := 4) (n := 1024))
    (fun p : Fin 4 × Fin 1024 => f ⟨p.1.val * 1024 + p.2.val, by omega⟩) (fun k : Fin 4096 => f k)
    (fun p => congrArg f (Fin.ext (by simp only [finProdFinEquiv_apply_val]; omega)))
  rw [← e, Fintype.sum_prod_type]

/-- Four left-nested accumulation steps from zero, each adding one term of `a` and one of `b`, end at the sum
    of `a` plus the sum of `b`. -/
theorem acc4 (a b : Fin 4 → M) :
    ((((0 + (a 0 + b 0)) + (a 1 + b 1)) + (a 2 + b 2)) + (a 3 + b 3)) = (∑ kb, a kb) + (∑ kb, b kb) := by
  rw [Fin.sum_univ_four, Fin.sum_univ_four, zero_add]
  abel

/-- Four left-nested accumulation steps from zero, each adding one term of `a`, end at the sum of `a`. -/
theorem acc4' (a : Fin 4 → M) : ((((0 + a 0) + a 1) + a 2) + a 3) = ∑ kb, a kb := by
  rw [Fin.sum_univ_four, zero_add]

/-- The sum of `f` over block `kb`: the 1024 indices `kb * 1024 + c`, `c < 1024`. -/
abbrev blockSum (f : Fin 4096 → M) (kb : Fin 4) : M :=
  ∑ c : Fin 1024, f ⟨kb.val * 1024 + c.val, by omega⟩

/-- The four block sums of `f` add up to its whole sum. -/
theorem sum_blockSum (f : Fin 4096 → M) : (∑ kb : Fin 4, blockSum f kb) = ∑ k : Fin 4096, f k :=
  sum_blocks4 f

/-- Accumulating, from zero and block after block, the block sums of `f` and of `g` together gives the whole
    sum of `f` plus the whole sum of `g`. Stated for any `A`, `B` that ARE the block sums (`hA`, `hB`), so that
    it applies whatever way the block sums are spelt. -/
theorem acc4_blocks_of (f g : Fin 4096 → M) (A B : Fin 4 → M)
    (hA : ∀ kb : Fin 4, A kb = ∑ c : Fin 1024, f ⟨kb.val * 1024 + c.val, by omega⟩)
    (hB : ∀ kb : Fin 4, B kb = ∑ c : Fin 1024, g ⟨kb.val * 1024 + c.val, by omega⟩) :
    ((((0 + (A 0 + B 0)) + (A 1 + B 1)) + (A 2 + B 2)) + (A 3 + B 3)) = (∑ k, f k) + (∑ k, g k) := by
  rw [acc4 A B, ← sum_blocks4 f, ← sum_blocks4 g]
  exact congrArg₂ (· + ·) (Finset.sum_congr rfl fun kb _ => hA kb) (Finset.sum_congr rfl fun kb _ => hB kb)

/-- Accumulating, from zero and block after block, the block sums of `f` gives the whole sum of `f`. Stated
    for any `A` that IS the block sums (`hA`). -/
theorem acc4'_blocks_of (f : Fin 4096 → M) (A : Fin 4 → M)
    (hA : ∀ kb : Fin 4, A kb = ∑ c : Fin 1024, f ⟨kb.val * 1024 + c.val, by omega⟩) :
    ((((0 + A 0) + A 1) + A 2) + A 3) = ∑ k, f k := by
  rw [acc4' A, ← sum_blocks4 f]
  exact Finset.sum_congr rfl fun kb _ => hA kb

/-- The same with the block sums written out as `blockSum`: two families accumulated together. -/
theorem acc4_blocks (f g : Fin 4096 → M) :
    ((((0 + (blockSum f 0 + blockSum g 0)) + (blockSum f 1 + blockSum g 1)) + (blockSum f 2 + blockSum g 2))
      + (blockSum f 3 + blockSum g 3)) = (∑ k, f k) + (∑ k, g k) :=
  acc4_blocks_of f g (blockSum f) (blockSum g) (fun _ => rfl) (fun _ => rfl)

/-- The same with the block sums written out as `blockSum`: one family. -/
theorem acc4'_blocks (f : Fin 4096 → M) :
    ((((0 + blockSum f 0) + blockSum f 1) + blockSum f 2) + blockSum f 3) = ∑ k, f k :=
  acc4'_blocks_of f (blockSum f) (fun _ => rfl)

end Cert.Lib
-- ==== Proof.RnnSpec.lean ====
/-
  The fused recurrent cell, as one function of its argument arrays, index by index, at the ideal instance
  (floats are extended reals, `+` and `*` exact).

  With `X` the input and `H` the previous hidden state (both 4096 x 4096, row `b`), `Wx`, `Wh` the two weight
  matrices (4096 x 4096, row `h`), `B` the bias (4096):

      newH[b, h] = tanh( (sum_k X[b, k] * Wx[h, k]  +  sum_k H[b, k] * Wh[h, k])  +  B[h] )

  and with `Wout` the output weights (1024 x 4096, row `o`) and `Bout` the output bias (1024):

      outG[b, o] = sum_k N[b, k] * Wout[o, k]  +  Bout[o]

  for any 4096 x 4096 array `N`; the cell's output is `outG (newH X H Wx Wh B) Wout Bout`. Every contraction
  runs over the second axis of both factors, all 4096 terms in one sum.
-/
import Idealize.ShloMosaic.PureOps.Ideal
import Idealize.ShloMosaic.PureOps.Ideal.Laws
import Idealize.ShloMosaic.Lib.ValueIdx

noncomputable section

open scoped BigOperators

namespace Cert.Rnn

open Idealize.ShloMosaic Idealize.ShloMosaic.ValueIdx

/-- 4096 x 4096: the input, the hidden state, the two recurrent weight matrices, the new hidden state. -/
abbrev Sq : Shape := ⟨2, ![4096, 4096]⟩
/-- 4096: the hidden bias. -/
abbrev Vb : Shape := ⟨1, ![4096]⟩
/-- 1024 x 4096: the output weights. -/
abbrev Wo : Shape := ⟨2, ![1024, 4096]⟩
/-- 1024: the output bias. -/
abbrev Vo : Shape := ⟨1, ![1024]⟩
/-- 4096 x 1024: the output. -/
abbrev Out : Shape := ⟨2, ![4096, 1024]⟩

/-- The new hidden state: `tanh` of the two full contractions plus the bias. -/
def newH (X H Wx Wh : Sq.Idx → EReal) (B : Vb.Idx → EReal) : Sq.Idx → EReal := fun j =>
  Ideal.tanh (((∑ k : Fin 4096, X (ix2 (j 0) k) * Wx (ix2 (j 1) k))
      + (∑ k : Fin 4096, H (ix2 (j 0) k) * Wh (ix2 (j 1) k))) + B (ix1 (j 1)))

/-- The output layer on a hidden state `N`: one full contraction plus the bias. -/
def outG (N : Sq.Idx → EReal) (Wout : Wo.Idx → EReal) (Bout : Vo.Idx → EReal) : Out.Idx → EReal := fun j =>
  (∑ k : Fin 4096, N (ix2 (j 0) k) * Wout (ix2 (j 1) k)) + Bout (ix1 (j 1))

/-- `newH` read at the index with coordinates `p`, `q`. -/
theorem newH_ix2 (X H Wx Wh : Sq.Idx → EReal) (B : Vb.Idx → EReal) (p q : Fin 4096) :
    newH X H Wx Wh B (ix2 p q) =
      Ideal.tanh (((∑ k : Fin 4096, X (ix2 p k) * Wx (ix2 q k))
        + (∑ k : Fin 4096, H (ix2 p k) * Wh (ix2 q k))) + B (ix1 q)) := rfl

/-- `outG` read at the index with coordinates `p`, `q`. -/
theorem outG_ix2 (N : Sq.Idx → EReal) (Wout : Wo.Idx → EReal) (Bout : Vo.Idx → EReal) (p : Fin 4096) (q : Fin 1024) :
    outG N Wout Bout (ix2 p q) = (∑ k : Fin 4096, N (ix2 p k) * Wout (ix2 q k)) + Bout (ix1 q) := rfl

end Cert.Rnn

end
-- ==== Proof.CellValue.lean ====
/-
  The value of the recurrent-cell region at the ideal instance: whatever arrays x, Wx, hidden, Wh (4096 x 4096) and bias
  row (1 x 4096) the region is entered with, the array it leaves is
      new_h[r, s] = tanh( sum_k x[r, k] * Wx[s, k] + sum_k hidden[r, k] * Wh[s, k] + bias[0, s] ).
  The kernel computes it tile by tile: for each (row block, column block) it runs through the four contraction blocks
  of 1024 columns, keeping a 1024 x 1024 accumulator that it zeroes at the first, adds the two partial tile products
  to at each, and turns into the output tile at the last. So entry (p, q) of the accumulator after contraction block
  k is 0 + (A0 + B0) + ... + (Ak + Bk), A and B the partial sums over a block of columns; after the last block this
  is the two whole sums, because four blocks of 1024 columns are the 4096 columns and sums of extended reals may be
  regrouped freely (commutativity and associativity only; nothing here needs the entries to be finite).
  In order: what each control case's stores leave, as the body's arithmetic of the blocks it loaded; that arithmetic
  at an index; where a window's block sits in its array; the accumulator by induction on the grid point; the block a
  flushing point writes back; the output blocks cover the array.
-/
import proofs.«114823_j33921651704507_2_alg».proof.Proof.KernelIdeal.R0Frame
import proofs.«114823_j33921651704507_2_alg».proof.Proof.LibBlockAcc
import proofs.«114823_j33921651704507_2_alg».proof.Proof.RnnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.CellValue

open Cert.KernelIdeal Cert.KernelIdeal.Gen Cert.KernelIdeal.Hand

variable {F : FTy → Type} [FloatOps F]

theorem hz : (![0, 0] : Fin 2 → Nat) = fun _ => 0 := funext fun a => by fin_cases a <;> rfl

/-! ## What each case's stores leave, as the body's arithmetic of the blocks -/

/-- At k = 1, 2 the accumulator ends at the body's sum term of what it held and the four input blocks. -/
theorem sout_B (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) :
    sout0_B c i arg3 harg3 arg4 harg4 arg5 harg5 arg6 harg6 arg7 harg7 arg8 harg8 arg9 harg9 hc0 hc1 x0 x1 x2 x3 x4 xs0 = k0_pay2 x0 x2 xs0 x1 x3 := by
  unfold sout0_B
  rw [View.read_writes_eq_canon _ _ _ (scover0_B c i arg3 harg3 arg4 harg4 arg5 harg5 arg6 harg6 arg7 harg7 arg8 harg8 arg9 harg9 hc0 hc1 x0 x1 x2 x3 x4 xs0)]
  unfold kernelRun0_B
  dsimp only
  rw [View.canon_unit_zero hz]
  simp only [View.readAt_eq_ld, harg3.read_unread, harg4.read_unread, harg5.read_unread, harg6.read_unread, harg7.read_unread, harg9.read_unread, View.ld_unit_zero (S := S1024x1024) hz]

/-- At k = 0 the accumulator is zeroed first, so it ends at the sum term over the zero block. -/
theorem sout_A (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec F S1024x1024 .f32) (x1 : Vec F S1024x1024 .bf16) (x2 : Vec F S1024x1024 .f32) (x3 : Vec F S1024x1024 .bf16) (x4 : Vec F S1x1024 .f32) :
    sout0_A c i arg3 harg3 arg4 harg4 arg5 harg5 arg6 harg6 arg7 harg7 arg8 harg8 arg9 harg9 hc0 hc1 x0 x1 x2 x3 x4 = k0_pay2 x0 x2 (k0_pay1 (F := F)) x1 x3 := by
  unfold sout0_A
  rw [View.read_writes_eq_canon _ _ _ (scover0_A c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg9.read_unread, View.ld_unit_zero (S := S1024x1024) hz]

/-- At k = 3 the accumulator ends as at k = 1, 2, -/
theorem sout_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) :
    sout0_C c i arg3 harg3 arg4 harg4 arg5 harg5 arg6 harg6 arg7 harg7 arg8 harg8 arg9 harg9 hc0 hc1 x0 x1 x2 x3 x4 xs0 = k0_pay2 x0 x2 xs0 x1 x3 := by
  unfold sout0_C
  rw [View.read_writes_eq_canon _ _ _ (scover0_C c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread, View.ld_unit_zero (S := S1024x1024) hz]

/-- and the output block is the body's output term of that accumulator and the bias row. -/
theorem out_C (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec F S1024x1024 .f32) (x1 : Vec F S1024x1024 .bf16) (x2 : Vec F S1024x1024 .f32) (x3 : Vec F S1024x1024 .bf16) (x4 : Vec F S1x1024 .f32) (xs0 : Vec F S1024x1024 .f32) :
    out0_C c i arg3 harg3 arg4 harg4 arg5 harg5 arg6 harg6 arg7 harg7 arg8 harg8 arg9 harg9 hc0 hc1 x0 x1 x2 x3 x4 xs0 = k0_pay3 (k0_pay2 x0 x2 xs0 x1 x3) x4 := by
  unfold out0_C
  rw [View.read_writes_eq_canon _ _ _ (cover0_C c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, View.readCov_unit_zero (S := S1024x1024) _ hz, harg3.read_unread, harg4.read_unread, harg5.read_unread, harg6.read_unread, harg7.read_unread, harg9.read_unread, View.ld_unit_zero (S := S1024x1024) hz, View.ld_unit_zero (S := S1x1024) hz]

/-! ## The body's arithmetic at an index, over the extended reals -/

section AtIdeal

abbrev D0 := dot_S1024x1024_S1024x1024_S1024x1024_1_1_0_0_n_n

theorem lhs0 (i : S1024x1024.Idx) (q : D0.contr.Idx) : (D0.lhsIdx i q 0).val = (i 0).val := by
  unfold DotDims.lhsIdx
  rw [dif_neg (show ¬(0 : Fin S1024x1024.rank) ∈ D0.lhsBatch by decide), dif_pos (show (0 : Fin S1024x1024.rank) ∈ D0.lhsNonContracting by decide)]
  rfl
theorem lhs1 (i : S1024x1024.Idx) (q : D0.contr.Idx) : (D0.lhsIdx i q 1).val = (q ⟨0, by decide⟩).val :=
  D0.lhsIdx_val_of_single rfl i q
theorem rhs0 (i : S1024x1024.Idx) (q : D0.contr.Idx) : (D0.rhsIdx i q 0).val = (i 1).val := by
  unfold DotDims.rhsIdx
  rw [dif_neg (show ¬(0 : Fin S1024x1024.rank) ∈ D0.rhsBatch by decide), dif_pos (show (0 : Fin S1024x1024.rank) ∈ D0.rhsNonContracting by decide)]
  rfl
theorem rhs1 (i : S1024x1024.Idx) (q : D0.contr.Idx) : (D0.rhsIdx i q 1).val = (q ⟨0, by decide⟩).val :=
  D0.rhsIdx_val_of_single rfl i q

/-- A tile product into the zero accumulator: entry (p, q) is the sum over the tile's columns of row p of the left
    tile times row q of the right tile (both operands are contracted along their second axis). -/
theorem tile_matmul {φ₁ φ₂ : FTy} (a : FVec Ideal S1024x1024 φ₁) (b : FVec Ideal S1024x1024 φ₂) (p q : Fin 1024) :
    matmul (F := Ideal) D0 none a b (constant S1024x1024 .f32 0x00000000#32) (ix2 p q)
      = ∑ cc : Fin 1024, a (ix2 p cc) * b (ix2 q cc) := by
  refine (Ideal.matmul_constant_zero_apply D0 none a b (ix2 p q)).trans ?_
  rw [← Equiv.sum_comp (contrEquiv1 D0 1024 rfl rfl).symm]
  refine Finset.sum_congr rfl fun k _ => ?_
  have hk := contrEquiv1_symm_val D0 1024 rfl rfl k
  have el : D0.lhsIdx (ix2 p q) ((contrEquiv1 D0 1024 rfl rfl).symm k) = ix2 p k := funext fun ax => Fin.ext (by
    match ax with
    | ⟨0, _⟩ => exact lhs0 _ _
    | ⟨1, _⟩ => exact (lhs1 _ _).trans hk)
  have er : D0.rhsIdx (ix2 p q) ((contrEquiv1 D0 1024 rfl rfl).symm k) = ix2 q k := funext fun ax => Fin.ext (by
    match ax with
    | ⟨0, _⟩ => exact rhs0 _ _
    | ⟨1, _⟩ => exact (rhs1 _ _).trans hk)
  rw [el, er]

/-- The zero block. -/
theorem pay1_apply (p q : Fin 1024) : k0_pay1 (F := Ideal) (ix2 p q) = 0 := by
  unfold k0_pay1
  simp only [shapeCast_self]
  exact Ideal.ofBits_zero_f32

/-- The sum term: the accumulator's entry plus the two tile products' entries (rounding to bf16 is the identity on
    extended reals). -/
theorem pay2_apply (x0 x2 a : FVec Ideal S1024x1024 .f32) (x1 x3 : FVec Ideal S1024x1024 .bf16) (p q : Fin 1024) :
    k0_pay2 (F := Ideal) x0 x2 a x1 x3 (ix2 p q)
      = a (ix2 p q) + ((∑ cc : Fin 1024, x0 (ix2 p cc) * x1 (ix2 q cc)) + (∑ cc : Fin 1024, x2 (ix2 p cc) * x3 (ix2 q cc))) := by
  unfold k0_pay2
  simp only [shapeCast_self]
  show a (ix2 p q) + (matmul (F := Ideal) D0 none (truncf .bf16 x0 bitsLt_bf16_f32) x1 (constant S1024x1024 .f32 0x00000000#32) (ix2 p q)
      + matmul (F := Ideal) D0 none (truncf .bf16 x2 bitsLt_bf16_f32) x3 (constant S1024x1024 .f32 0x00000000#32) (ix2 p q)) = _
  rw [tile_matmul, tile_matmul]
  rfl

/-- The output term: tanh of the accumulator's entry plus the bias row's entry of that column. -/
theorem pay3_apply (a : FVec Ideal S1024x1024 .f32) (b : FVec Ideal S1x1024 .f32) (p q : Fin 1024) :
    k0_pay3 (F := Ideal) a b (ix2 p q) = Ideal.tanh (a (ix2 p q) + b (ix2 (0 : Fin 1) q)) := by
  unfold k0_pay3
  simp only [shapeCast_self]
  show Ideal.tanh (a (ix2 p q) + broadcastTo S1024x1024 b broadcasts_S1x1024_S1024x1024 (ix2 p q)) = _
  rw [broadcastTo_1b_ab_apply]

end AtIdeal

/-! ## Where a window's block sits in its array -/

/-- The printed index maps over the 64 points: a point t is (row block, column block, contraction block) =
    (t / 16, (t / 4) mod 4, t mod 4). -/
theorem idx_facts0 : ∀ t : Fin cfg0.N,
    win0_0.index t (0 : Fin 2) = t.val / 16 ∧ win0_0.index t (1 : Fin 2) = t.val % 4
    ∧ win0_1.index t (0 : Fin 2) = (t.val / 4) % 4 ∧ win0_1.index t (1 : Fin 2) = t.val % 4
    ∧ win0_2.index t (0 : Fin 2) = t.val / 16 ∧ win0_2.index t (1 : Fin 2) = t.val % 4
    ∧ win0_3.index t (0 : Fin 2) = (t.val / 4) % 4 ∧ win0_3.index t (1 : Fin 2) = t.val % 4
    ∧ win0_4.index t (0 : Fin 2) = 0 ∧ win0_4.index t (1 : Fin 2) = (t.val / 4) % 4
    ∧ win0_5.index t (0 : Fin 2) = t.val / 16 ∧ win0_5.index t (1 : Fin 2) = (t.val / 4) % 4 :=
  (by decide +kernel : ∀ t : Fin grid0.N, _)

theorem lt64 (t : Fin cfg0.N) : t.val < 64 := lt_of_lt_of_eq t.isLt (show cfg0.N = 64 from N_0)

/-- The array row of row p of the point's row block, the array row (of a weight matrix) of row q of its column
    block, and the array column of column cc of its contraction block. -/
def rowIx (t : Fin cfg0.N) (p : Fin 1024) : Fin 4096 := ⟨(t.val / 16) * 1024 + p.val, by have := lt64 t; have := p.isLt; omega⟩
def colIx (t : Fin cfg0.N) (q : Fin 1024) : Fin 4096 := ⟨((t.val / 4) % 4) * 1024 + q.val, by have := q.isLt; omega⟩
def kIx (t : Fin cfg0.N) (cc : Fin 1024) : Fin 4096 := ⟨(t.val % 4) * 1024 + cc.val, by have := cc.isLt; omega⟩

section Reads
variable (V : (c : Dev nD) → (b : Ref sig .tc) → Buf (Elt F) ((c : Thread nD τ).loc b))

theorem read0_0 (c : Dev nD) (t : Fin cfg0.N) (p cc : Fin 1024) :
    (iblk0 V c 0 t : Vec F S1024x1024 .f32) (ix2 p cc) = (V c main_arg0 : FVec F S4096x4096 .f32) (ix2 (rowIx t p) (kIx t cc)) := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t (0 : Fin 2) * 1024 + 1 * p.val = (t.val / 16) * 1024 + p.val; rw [e0]; omega
  | ⟨1, _⟩ => show win0_0.index t (1 : Fin 2) * 1024 + 1 * cc.val = (t.val % 4) * 1024 + cc.val; rw [e1]; omega

theorem read0_1 (c : Dev nD) (t : Fin cfg0.N) (q cc : Fin 1024) :
    (iblk0 V c 1 t : Vec F S1024x1024 .bf16) (ix2 q cc) = (V c main_v0 : FVec F S4096x4096 .bf16) (ix2 (colIx t q) (kIx t cc)) := by
  obtain ⟨-, -, e0, e1, -⟩ := idx_facts0 t
  unfold iblk0
  rw [View.read_apply]
  show V c main_v0 _ = V c main_v0 _
  refine congrArg _ (funext fun a => Fin.ext ?_)
  match a with
  | ⟨0, _⟩ => show win0_1.index t (0 : Fin 2) * 1024 + 1 * q.val = ((t.val / 4) % 4) * 1024 + q.val; rw [e0]; omega
  | ⟨1, _⟩ => show win0_1.index t (1 : Fin 2) * 1024 + 1 * cc.val = (t.val % 4) * 1024 + cc.val; rw [e1]; omega

theorem read0_2 (c : Dev nD) (t : Fin cfg0.N) (p cc : Fin 1024) :
    (iblk0 V c 2 t : Vec F S1024x1024 .f32) (ix2 p cc) = (V c main_arg1 : FVec F S4096x4096 .f32) (ix2 (rowIx t p) (kIx t cc)) := by
  obtain ⟨-, -, -, -, e0, e1, -⟩ := idx_facts0 t
  unfold iblk0
  rw [View.read_apply]
  show V c main_arg1 _ = V c main_arg1 _
  refine congrArg _ (funext fun a => Fin.ext ?_)
  match a with
  | ⟨0, _⟩ => show win0_2.index t (0 : Fin 2) * 1024 + 1 * p.val = (t.val / 16) * 1024 + p.val; rw [e0]; omega
  | ⟨1, _⟩ => show win0_2.index t (1 : Fin 2) * 1024 + 1 * cc.val = (t.val % 4) * 1024 + cc.val; rw [e1]; omega

theorem read0_3 (c : Dev nD) (t : Fin cfg0.N) (q cc : Fin 1024) :
    (iblk0 V c 3 t : Vec F S1024x1024 .bf16) (ix2 q cc) = (V c main_v1 : FVec F S4096x4096 .bf16) (ix2 (colIx t q) (kIx t cc)) := by
  obtain ⟨-, -, -, -, -, -, e0, e1, -⟩ := idx_facts0 t
  unfold iblk0
  rw [View.read_apply]
  show V c main_v1 _ = V c main_v1 _
  refine congrArg _ (funext fun a => Fin.ext ?_)
  match a with
  | ⟨0, _⟩ => show win0_3.index t (0 : Fin 2) * 1024 + 1 * q.val = ((t.val / 4) % 4) * 1024 + q.val; rw [e0]; omega
  | ⟨1, _⟩ => show win0_3.index t (1 : Fin 2) * 1024 + 1 * cc.val = (t.val % 4) * 1024 + cc.val; rw [e1]; omega

theorem read0_4 (c : Dev nD) (t : Fin cfg0.N) (q : Fin 1024) :
    (iblk0 V c 4 t : Vec F S1x1024 .f32) (ix2 (0 : Fin 1) q) = (V c main_v2 : FVec F S1x4096 .f32) (ix2 (0 : Fin 1) (colIx t q)) := by
  obtain ⟨-, -, -, -, -, -, -, -, e0, e1, -⟩ := idx_facts0 t
  unfold iblk0
  rw [View.read_apply]
  show V c main_v2 _ = V c main_v2 _
  refine congrArg _ (funext fun a => Fin.ext ?_)
  match a with
  | ⟨0, _⟩ => show win0_4.index t (0 : Fin 2) * 1 + 1 * 0 = 0; rw [e0]
  | ⟨1, _⟩ => show win0_4.index t (1 : Fin 2) * 1024 + 1 * q.val = ((t.val / 4) % 4) * 1024 + q.val; rw [e1]; omega

end Reads

/-! ## The accumulator after each point, and the array the region leaves -/

section Acc
variable (V : (c : Dev nD) → (b : Ref sig .tc) → Buf (Elt Ideal) ((c : Thread nD τ).loc b))

/-- The region's five input arrays, as functions into the extended reals: x, the first weight matrix, hidden, the
    second weight matrix, the bias row. -/
abbrev aX (c : Dev nD) : S4096x4096.Idx → EReal := V c main_arg0
abbrev aWx (c : Dev nD) : S4096x4096.Idx → EReal := V c main_v0
abbrev aH (c : Dev nD) : S4096x4096.Idx → EReal := V c main_arg1
abbrev aWh (c : Dev nD) : S4096x4096.Idx → EReal := V c main_v1
abbrev aB (c : Dev nD) : S1x4096.Idx → EReal := V c main_v2

/-- The products along array rows r (of x, of hidden) and s (of the two weight matrices), as functions of the
    column (read modulo the row length, so that they are total). -/
def fX (c : Dev nD) (r s : Fin 4096) : ℕ → EReal := fun k =>
  aX V c (ix2 r ⟨k % 4096, Nat.mod_lt _ (by decide)⟩) * aWx V c (ix2 s ⟨k % 4096, Nat.mod_lt _ (by decide)⟩)
def fH (c : Dev nD) (r s : Fin 4096) : ℕ → EReal := fun k =>
  aH V c (ix2 r ⟨k % 4096, Nat.mod_lt _ (by decide)⟩) * aWh V c (ix2 s ⟨k % 4096, Nat.mod_lt _ (by decide)⟩)
/-- The sum of f over the kb-th block of 1024 columns. -/
def blk (f : ℕ → EReal) (kb : ℕ) : EReal := ∑ cc : Fin 1024, f (kb * 1024 + cc.val)
/-- The accumulator's entry after contraction block k: zero, then each block's two partial sums added in order. -/
def accK (A B : ℕ → EReal) : ℕ → EReal
  | 0 => 0 + (A 0 + B 0)
  | k + 1 => accK A B k + (A (k + 1) + B (k + 1))

theorem kIx_eq (t : Fin cfg0.N) (cc : Fin 1024) :
    kIx t cc = ⟨((t.val % 4) * 1024 + cc.val) % 4096, Nat.mod_lt _ (by decide)⟩ :=
  Fin.ext (by show (t.val % 4) * 1024 + cc.val = ((t.val % 4) * 1024 + cc.val) % 4096; have := cc.isLt; omega)

/-- The two tile products of a point are the point's block sums of the row products: for blocks x0, x1 that read the
    arrays at the point's rows and columns. -/
theorem stepX (c : Dev nD) (t : Fin cfg0.N) (x0 : FVec Ideal S1024x1024 .f32) (x1 : FVec Ideal S1024x1024 .bf16)
    (h0 : ∀ p cc : Fin 1024, x0 (ix2 p cc) = aX V c (ix2 (rowIx t p) (kIx t cc)))
    (h1 : ∀ q cc : Fin 1024, x1 (ix2 q cc) = aWx V c (ix2 (colIx t q) (kIx t cc))) (p q : Fin 1024) :
    (∑ cc : Fin 1024, x0 (ix2 p cc) * x1 (ix2 q cc)) = blk (fX V c (rowIx t p) (colIx t q)) (t.val % 4) := by
  unfold blk fX
  refine Finset.sum_congr rfl fun cc _ => ?_
  rw [h0, h1, kIx_eq]
theorem stepH (c : Dev nD) (t : Fin cfg0.N) (x2 : FVec Ideal S1024x1024 .f32) (x3 : FVec Ideal S1024x1024 .bf16)
    (h2 : ∀ p cc : Fin 1024, x2 (ix2 p cc) = aH V c (ix2 (rowIx t p) (kIx t cc)))
    (h3 : ∀ q cc : Fin 1024, x3 (ix2 q cc) = aWh V c (ix2 (colIx t q) (kIx t cc))) (p q : Fin 1024) :
    (∑ cc : Fin 1024, x2 (ix2 p cc) * x3 (ix2 q cc)) = blk (fH V c (rowIx t p) (colIx t q)) (t.val % 4) := by
  unfold blk fH
  refine Finset.sum_congr rfl fun cc _ => ?_
  rw [h2, h3, kIx_eq]

/-- One body step at an index: the sum term of an accumulator a and the point's four blocks is a's entry plus the
    point's two block sums. -/
theorem step_apply (c : Dev nD) (t : Fin cfg0.N) (a : FVec Ideal S1024x1024 .f32) (p q : Fin 1024) :
    k0_pay2 (F := Ideal) (iblk0 V c 0 t) (iblk0 V c 2 t) a (iblk0 V c 1 t) (iblk0 V c 3 t) (ix2 p q)
      = a (ix2 p q) + (blk (fX V c (rowIx t p) (colIx t q)) (t.val % 4) + blk (fH V c (rowIx t p) (colIx t q)) (t.val % 4)) := by
  refine (pay2_apply (iblk0 V c 0 t) (iblk0 V c 2 t) a (iblk0 V c 1 t) (iblk0 V c 3 t) p q).trans ?_
  rw [stepX V c t (iblk0 V c 0 t) (iblk0 V c 1 t) (read0_0 V c t) (read0_1 V c t) p q,
    stepH V c t (iblk0 V c 2 t) (iblk0 V c 3 t) (read0_2 V c t) (read0_3 V c t) p q]

/-- The accumulator's entry (p, q) after point t. -/
def accAt (c : Dev nD) (t : Fin cfg0.N) (p q : Fin 1024) : EReal :=
  accK (blk (fX V c (rowIx t p) (colIx t q))) (blk (fH V c (rowIx t p) (colIx t q))) (t.val % 4)

/-- Within a group of four points the row and column blocks do not move, and the contraction block advances by one. -/
theorem accAt_succ (c : Dev nD) (n : ℕ) (hn : n + 1 < cfg0.N) (h0 : ¬(n + 1) % 4 = 0) (p q : Fin 1024) :
    accAt V c ⟨n, Nat.lt_of_succ_lt hn⟩ p q
      + (blk (fX V c (rowIx ⟨n + 1, hn⟩ p) (colIx ⟨n + 1, hn⟩ q)) ((n + 1) % 4)
        + blk (fH V c (rowIx ⟨n + 1, hn⟩ p) (colIx ⟨n + 1, hn⟩ q)) ((n + 1) % 4))
      = accAt V c ⟨n + 1, hn⟩ p q := by
  have er : rowIx ⟨n, Nat.lt_of_succ_lt hn⟩ p = rowIx ⟨n + 1, hn⟩ p :=
    Fin.ext (by show n / 16 * 1024 + p.val = (n + 1) / 16 * 1024 + p.val; omega)
  have ec : colIx ⟨n, Nat.lt_of_succ_lt hn⟩ q = colIx ⟨n + 1, hn⟩ q :=
    Fin.ext (by show n / 4 % 4 * 1024 + q.val = (n + 1) / 4 % 4 * 1024 + q.val; omega)
  unfold accAt
  rw [er, ec]
  show accK _ _ (n % 4) + _ = accK _ _ ((n + 1) % 4)
  have e : (n + 1) % 4 = n % 4 + 1 := by omega
  rw [e]
  rfl

/-- THE ACCUMULATOR after point n, by induction on the point: at k = 0 the zeroed accumulator plus the first block's
    partial sums, afterwards what the point before left plus this block's. -/
theorem acc_eq (c : Dev nD) : ∀ (n : ℕ) (hn : n < cfg0.N) (p q : Fin 1024),
    (outsAt0 V c n hn).2 (ix2 p q) = accAt V c ⟨n, hn⟩ p q
  | 0, hn, p, q => by
    have h0 : (⟨0, hn⟩ : Fin cfg0.N).val % 4 = 0 := rfl
    have h1 : ¬(⟨0, hn⟩ : Fin cfg0.N).val % 4 = 3 := by show ¬(0 % 4 = 3); decide
    rw [outsAt0_A V c ⟨0, hn⟩ h0 h1]
    dsimp only
    rw [sout_A]
    refine (step_apply V c ⟨0, hn⟩ (k0_pay1 (F := Ideal)) p q).trans ?_
    rw [pay1_apply]
    rfl
  | n + 1, hn, p, q => by
    by_cases h0 : (n + 1) % 4 = 0
    · have h1 : ¬(n + 1) % 4 = 3 := by omega
      rw [outsAt0_A V c ⟨n + 1, hn⟩ h0 h1]
      dsimp only
      rw [sout_A]
      refine (step_apply V c ⟨n + 1, hn⟩ (k0_pay1 (F := Ideal)) p q).trans ?_
      rw [pay1_apply]
      unfold accAt
      show _ = accK _ _ ((n + 1) % 4)
      rw [h0]
      rfl
    · by_cases h1 : (n + 1) % 4 = 3
      · rw [outsAt0_C V c ⟨n + 1, hn⟩ h0 h1]
        dsimp only
        rw [sout_C]
        refine (step_apply V c ⟨n + 1, hn⟩ _ p q).trans ?_
        show (outsAt0 V c n _).2 (ix2 p q) + _ = _
        rw [acc_eq c n _ p q]
        exact accAt_succ V c n hn h0 p q
      · rw [outsAt0_B V c ⟨n + 1, hn⟩ h0 h1]
        dsimp only
        rw [sout_B]
        refine (step_apply V c ⟨n + 1, hn⟩ _ p q).trans ?_
        show (outsAt0 V c n _).2 (ix2 p q) + _ = _
        rw [acc_eq c n _ p q]
        exact accAt_succ V c n hn h0 p q

/-- The new hidden state as the region computes it from its arrays: tanh of the two whole row products plus the
    bias row's entry. -/
def cellG (c : Dev nD) : S4096x4096.Idx → EReal := fun j =>
  Ideal.tanh (((∑ k : Fin 4096, aX V c (ix2 (j 0) k) * aWx V c (ix2 (j 1) k))
      + (∑ k : Fin 4096, aH V c (ix2 (j 0) k) * aWh V c (ix2 (j 1) k)))
    + aB V c (ix2 (0 : Fin 1) (j 1)))

/-- After the last contraction block the accumulator's entry is the two whole row products: four blocks of 1024
    columns are the 4096 columns, and sums of extended reals may be regrouped. -/
theorem acc_full (c : Dev nD) (t : Fin cfg0.N) (h3 : t.val % 4 = 3) (p q : Fin 1024) :
    accAt V c t p q
      = (∑ k : Fin 4096, aX V c (ix2 (rowIx t p) k) * aWx V c (ix2 (colIx t q) k))
        + (∑ k : Fin 4096, aH V c (ix2 (rowIx t p) k) * aWh V c (ix2 (colIx t q) k)) := by
  unfold accAt
  rw [h3]
  refine Cert.Lib.acc4_blocks_of
    (fun k : Fin 4096 => aX V c (ix2 (rowIx t p) k) * aWx V c (ix2 (colIx t q) k))
    (fun k : Fin 4096 => aH V c (ix2 (rowIx t p) k) * aWh V c (ix2 (colIx t q) k))
    (fun kb : Fin 4 => blk (fX V c (rowIx t p) (colIx t q)) kb.val) (fun kb : Fin 4 => blk (fH V c (rowIx t p) (colIx t q)) kb.val) ?_ ?_
  · intro kb
    unfold blk fX
    refine Finset.sum_congr rfl fun cc _ => ?_
    have e : (⟨(kb.val * 1024 + cc.val) % 4096, Nat.mod_lt _ (by decide)⟩ : Fin 4096) = ⟨kb.val * 1024 + cc.val, by have := kb.isLt; have := cc.isLt; omega⟩ :=
      Fin.ext (Nat.mod_eq_of_lt (by have := kb.isLt; have := cc.isLt; omega))
    rw [e]
  · intro kb
    unfold blk fH
    refine Finset.sum_congr rfl fun cc _ => ?_
    have e : (⟨(kb.val * 1024 + cc.val) % 4096, Nat.mod_lt _ (by decide)⟩ : Fin 4096) = ⟨kb.val * 1024 + cc.val, by have := kb.isLt; have := cc.isLt; omega⟩ :=
      Fin.ext (Nat.mod_eq_of_lt (by have := kb.isLt; have := cc.isLt; omega))
    rw [e]

/-- At k = 3 the output buffer is the output term of what the accumulator ends holding. -/
theorem out_eq_C (c : Dev nD) (t : Fin cfg0.N) (h0 : ¬t.val % 4 = 0) (h3 : t.val % 4 = 3) :
    (outsAt0 V c t.val t.isLt).1 = k0_pay3 ((outsAt0 V c t.val t.isLt).2) (iblk0 V c 4 t) := by
  rw [outsAt0_C V c t h0 h3]
  dsimp only
  rw [out_C, sout_C]

/-- Where entry (p, q) of the point's output block sits in the array. -/
theorem emb5 (t : Fin cfg0.N) (p q : Fin 1024) :
    ((cfg0.win 5).blk t).view.emb (ix2 p q) = (ix2 (rowIx t p) (colIx t q) : S4096x4096.Idx) := by
  obtain ⟨-, -, -, -, -, -, -, -, -, -, e0, e1⟩ := idx_facts0 t
  refine funext fun a => Fin.ext ?_
  match a with
  | ⟨0, _⟩ => show win0_5.index t (0 : Fin 2) * 1024 + 1 * p.val = (t.val / 16) * 1024 + p.val; rw [e0]; omega
  | ⟨1, _⟩ => show win0_5.index t (1 : Fin 2) * 1024 + 1 * q.val = ((t.val / 4) % 4) * 1024 + q.val; rw [e1]; omega

/-- Entry j of the block a flushing point writes back is the new hidden state at j's place in the array. -/
theorem flushed_apply (c : Dev nD) (t : Fin cfg0.N) (h0 : ¬t.val % 4 = 0) (h3 : t.val % 4 = 3) (j : S1024x1024.Idx) :
    k0_pay3 (F := Ideal) ((outsAt0 V c t.val t.isLt).2) (iblk0 V c 4 t) j = cellG V c (((cfg0.win 5).blk t).view.emb j) := by
  obtain ⟨p, q, rfl⟩ : ∃ (p q : Fin 1024), j = ix2 p q := ⟨j 0, j 1, eq_ix2 j⟩
  refine (pay3_apply ((outsAt0 V c t.val t.isLt).2) (iblk0 V c 4 t) p q).trans ?_
  rw [emb5, acc_eq V c t.val t.isLt p q, acc_full V c t h3 p q, read0_4]
  rfl

/-- WHAT A FLUSHING POINT WRITES BACK is its block of the new hidden state. -/
theorem flushed_eq0 (c : Dev nD) (t : Fin cfg0.N) (hf : (cfg0.win 5).flush t = true) :
    (dat0 V c).flushed 5 t = ((cfg0.win 5).blk t).view.read (Elt Ideal) (cellG V c) := by
  have h3 : t.val % 4 = 3 := (flush0_5 t).mp hf
  have h0 : ¬t.val % 4 = 0 := by omega
  show (cfg0.win 5).cut (grid0.coords t) ((dat0 V c).after 5 t) = _
  rw [after0_5, out_eq_C V c t h0 h3]
  funext j
  exact flushed_apply V c t h0 h3 j

/-- An index of the array is in point t's output block iff each coordinate is in the block's range. -/
theorem mem_blk5 (t : Fin cfg0.N) (i : S4096x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v3).slice (win0_5.rect t)).set ↔ _
  rw [View.set_slice_whole, Rect.mem_set_unit]
  exact Iff.rfl

/-- Every entry of the array is in the output block of the last point of its (row block, column block) group. -/
theorem cover5 (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  have hN : cfg0.N = 64 := N_0
  let t : Fin cfg0.N := ⟨(i 0).val / 1024 * 16 + (i 1).val / 1024 * 4 + 3, by rw [hN]; omega⟩
  obtain ⟨-, -, -, -, -, -, -, -, -, -, e0, e1⟩ := idx_facts0 t
  have tv : t.val = (i 0).val / 1024 * 16 + (i 1).val / 1024 * 4 + 3 := rfl
  refine ⟨t, (flush0_5 t).mpr (by rw [tv]; omega), ?_⟩
  rw [mem_blk5]
  intro a
  match a with
  | ⟨0, _⟩ => show win0_5.index t (0 : Fin 2) * 1024 ≤ (i 0).val ∧ (i 0).val < win0_5.index t (0 : Fin 2) * 1024 + 1024; rw [e0, tv]; omega
  | ⟨1, _⟩ => show win0_5.index t (1 : Fin 2) * 1024 ≤ (i 1).val ∧ (i 1).val < win0_5.index t (1 : Fin 2) * 1024 + 1024; rw [e1, tv]; omega

/-- THE ARRAY the region leaves: the new hidden state of the arrays it was entered with. -/
theorem cell_final (c : Dev nD) : (dat0 V c).arrAt 5 cfg0.N = cellG V c :=
  (dat0 V c).arrAt_eq_of_cover 5 (cellG V c) (fun t hf => flushed_eq0 V c t hf) (cover5)

end Acc

end Cert.KernelIdeal.CellValue

end
-- ==== Proof.ProjValue.lean ====
/-
  The value of the output projection, at the ideal instance (floats are extended reals, `+` and `*` exact).

  The region computes, for a 4096 x 4096 array `N`, a 1024 x 4096 array `W` and a 1 x 1024 row `B`,

      out[r, q] = sum_k N[r, k] * W[q, k]  +  B[0, q]           (4096 x 1024),

  on a grid of 2 x 4 points: point `t` has row block `t / 4` (2048 rows) and contraction block `t % 4` (1024
  columns), the contraction block running fastest. At contraction block 0 a 2048 x 1024 accumulator is set to zero;
  at every point the product of the point's block of `N` (rows of the row block, columns of the contraction block)
  with the point's block of `W` (all rows, the same columns), contracted over those 1024 columns, is added to it; at
  contraction block 3 the accumulator plus the bias row is written to rows `(t / 4) * 2048 ...` of the result.

  So at `(p, q)` the accumulator goes through `0 + T 0`, `(0 + T 0) + T 1`, `((0 + T 0) + T 1) + T 2`,
  `(((0 + T 0) + T 1) + T 2) + T 3`, where `T kb` is the part of `sum_k N[r, k] * W[q, k]` with `k` in column block
  `kb` and `r = (t / 4) * 2048 + p`; four consecutive blocks of 1024 make up the 4096 columns, so the last value is
  the whole sum (only `0 + x = x` and the associativity of `+` are used). Each of the two row blocks is written back
  once, by the last point of its group of four, and the two blocks cover the result array.

  In order: what each control case of the body leaves in the accumulator and the output buffer, as the stored values
  (any float instance); those values read at an index (ideal instance); each window's block as entries of its array;
  the accumulator after every point, by induction on the point; the written-back block; the cover; the result array.
-/
import proofs.«114823_j33921651704507_2_alg».proof.Proof.KernelIdeal.R1Frame
import proofs.«114823_j33921651704507_2_alg».proof.Proof.LibBlockAcc
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.ProjValue

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)

section Pieces
variable {F : FTy → Type} [FloatOps F]

/-- The zero offsets of a whole-buffer access. -/
theorem hz2 : (![0, 0] : Fin 2 → Nat) = fun _ => 0 := funext fun a => by fin_cases a <;> rfl

/-- Contraction coordinate 1 or 2: the body's one store into the accumulator holding `xs0` leaves `xs0` plus the
    partial product of the two input blocks. -/
theorem sout_B (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) :
    sout1_B c i arg2 harg2 arg3 harg3 arg4 harg4 arg5 harg5 arg6 harg6 hc0 hc1 x0 x1 x2 xs0 = k1_pay2 xs0 x0 x1 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  rw [View.canon_unit_zero hz2]
  simp only [View.readAt_eq_ld, harg2.read_unread, harg3.read_unread, harg6.read_unread,
    View.ld_unit_zero (S := S2048x1024) hz2, View.ld_unit_zero (S := S1024x1024) hz2]

/-- Contraction coordinate 0: the accumulator is zeroed, read back, and left at zero plus the partial product. -/
theorem sout_A (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .bf16) (x1 : Vec F S1024x1024 .bf16) (x2 : Vec F S1x1024 .f32) :
    sout1_A c i arg2 harg2 arg3 harg3 arg4 harg4 arg5 harg5 arg6 harg6 hc0 hc1 x0 x1 x2 = k1_pay2 (k1_pay1 (F := F)) x0 x1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S2048x1024) hz2, View.readCov_unit_zero (S := S2048x1024) _ hz2]
  simp only [View.readAt_eq_ld, harg2.read_unread, harg3.read_unread,
    View.ld_unit_zero (S := S2048x1024) hz2, View.ld_unit_zero (S := S1024x1024) hz2]

/-- Contraction coordinate 3, the accumulator: as at coordinates 1 and 2. -/
theorem sout_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) :
    sout1_C c i arg2 harg2 arg3 harg3 arg4 harg4 arg5 harg5 arg6 harg6 hc0 hc1 x0 x1 x2 xs0 = k1_pay2 xs0 x0 x1 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg6.read_unread,
    View.ld_unit_zero (S := S2048x1024) hz2, View.ld_unit_zero (S := S1024x1024) hz2]

/-- Contraction coordinate 3, the output buffer: the accumulator just stored, read back, plus the bias row broadcast
    down the rows. -/
theorem out_C (c : Dev nD) (i : grid1.Coords) (arg2 : Memref sig .tc .vmem S2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .bf16) (x1 : Vec F S1024x1024 .bf16) (x2 : Vec F S1x1024 .f32) (xs0 : Vec F S2048x1024 .f32) :
    out1_C c i arg2 harg2 arg3 harg3 arg4 harg4 arg5 harg5 arg6 harg6 hc0 hc1 x0 x1 x2 xs0 = k1_pay3 (k1_pay2 xs0 x0 x1) x2 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, View.readCov_unit_zero (S := S2048x1024) _ hz2, harg2.read_unread, harg3.read_unread,
    harg4.read_unread, harg6.read_unread, View.ld_unit_zero (S := S2048x1024) hz2,
    View.ld_unit_zero (S := S1024x1024) hz2, View.ld_unit_zero (S := S1x1024) hz2]
end Pieces

section Payloads

/-- The dimension numbers of the block product: both factors contract their second axis. -/
abbrev DP : DotDims S2048x1024 S1024x1024 S2048x1024 := dot_S2048x1024_S1024x1024_S2048x1024_1_1_0_0_n_n

theorem lhs_0 (j : S2048x1024.Idx) (k : DP.contr.Idx) : (DP.lhsIdx j k 0).val = (j 0).val := by
  unfold DotDims.lhsIdx
  rw [dif_neg (show ¬(0 : Fin S2048x1024.rank) ∈ DP.lhsBatch by decide), dif_pos (show (0 : Fin S2048x1024.rank) ∈ DP.lhsNonContracting by decide)]
  rfl
theorem lhs_1 (j : S2048x1024.Idx) (k : DP.contr.Idx) : (DP.lhsIdx j k 1).val = (k ⟨0, by decide⟩).val :=
  DP.lhsIdx_val_of_single rfl j k
theorem rhs_0 (j : S2048x1024.Idx) (k : DP.contr.Idx) : (DP.rhsIdx j k 0).val = (j 1).val := by
  unfold DotDims.rhsIdx
  rw [dif_neg (show ¬(0 : Fin S1024x1024.rank) ∈ DP.rhsBatch by decide), dif_pos (show (0 : Fin S1024x1024.rank) ∈ DP.rhsNonContracting by decide)]
  rfl
theorem rhs_1 (j : S2048x1024.Idx) (k : DP.contr.Idx) : (DP.rhsIdx j k 1).val = (k ⟨0, by decide⟩).val :=
  DP.rhsIdx_val_of_single rfl j k

/-- The block product into the zero accumulator, at `(p, q)`: row `p` of the left block against row `q` of the right. -/
theorem matmul_zero_apply (l : FVec Ideal S2048x1024 .bf16) (r : FVec Ideal S1024x1024 .bf16) (p : Fin 2048) (q : Fin 1024) :
    matmul (F := Ideal) DP none l r (constant (F := Ideal) S2048x1024 .f32 0x00000000#32) (ix2 p q)
      = ∑ cc : Fin 1024, l (ix2 p cc) * r (ix2 q cc) := by
  simp only [matmul]
  rw [Ideal.matmul_constant_zero_apply, ← Equiv.sum_comp (contrEquiv1 DP 1024 rfl rfl).symm]
  refine Finset.sum_congr rfl fun k _ => ?_
  have hk := contrEquiv1_symm_val DP 1024 rfl rfl k
  have el : DP.lhsIdx (ix2 p q) ((contrEquiv1 DP 1024 rfl rfl).symm k) = ix2 p k := funext fun a => Fin.ext (by
    match a with
    | ⟨0, _⟩ => exact lhs_0 _ _
    | ⟨1, _⟩ => exact (lhs_1 _ _).trans hk)
  have er : DP.rhsIdx (ix2 p q) ((contrEquiv1 DP 1024 rfl rfl).symm k) = ix2 q k := funext fun a => Fin.ext (by
    match a with
    | ⟨0, _⟩ => exact rhs_0 _ _
    | ⟨1, _⟩ => exact (rhs_1 _ _).trans hk)
  rw [el, er]

/-- The reset value is zero everywhere. -/
theorem pay1_apply (j : S2048x1024.Idx) : k1_pay1 (F := Ideal) j = 0 := by
  unfold k1_pay1
  refine (congrFun (shapeCast_self _ _) j).trans ?_
  exact Ideal.ofBits_zero_f32

/-- One accumulation step at `(p, q)`: the accumulator there plus the block product there. -/
theorem pay2_apply (a : Vec Ideal S2048x1024 .f32) (x0 : Vec Ideal S2048x1024 .bf16) (x1 : Vec Ideal S1024x1024 .bf16)
    (p : Fin 2048) (q : Fin 1024) :
    k1_pay2 (F := Ideal) a x0 x1 (ix2 p q) = a (ix2 p q) + ∑ cc : Fin 1024, x0 (ix2 p cc) * x1 (ix2 q cc) := by
  unfold k1_pay2
  refine (congrFun (shapeCast_self _ _) (ix2 p q)).trans ?_
  refine congrArg (a (ix2 p q) + ·) ?_
  refine (matmul_zero_apply _ _ p q).trans ?_
  refine Finset.sum_congr rfl fun cc _ => ?_
  exact congrArg₂ (· * ·) (congrFun (shapeCast_self _ _) _) (congrFun (shapeCast_self _ _) _)

/-- The write-back value at `(p, q)`: the accumulator there plus the bias row at `q`. -/
theorem pay3_apply (a : Vec Ideal S2048x1024 .f32) (b : Vec Ideal S1x1024 .f32) (p : Fin 2048) (q : Fin 1024) :
    k1_pay3 (F := Ideal) a b (ix2 p q) = a (ix2 p q) + b (ix2 (0 : Fin 1) q) := by
  unfold k1_pay3
  refine congrArg (a (ix2 p q) + ·) ?_
  refine (broadcastTo_1b_ab_apply _ _ p q).trans ?_
  exact congrFun (shapeCast_self _ _) _

end Payloads

section Blocks
variable {F : FTy → Type} [FloatOps F]
variable (V : (c : Dev nD) → (b : Ref sig .tc) → Buf (Elt F) ((c : Thread nD τ).loc b))

/-- The printed index maps, decided once over the eight grid points: point `t` has row block `t / 4` and contraction
    block `t % 4`; the left factor's block moves with both, the right factor's with the contraction block only, the bias
    row never, the output's with the row block only. -/
theorem idx_facts : ∀ t : Fin cfg1.N, win1_0.index t (0 : Fin 2) = t.val / 4 ∧ win1_0.index t (1 : Fin 2) = t.val % 4
    ∧ win1_1.index t (0 : Fin 2) = 0 ∧ win1_1.index t (1 : Fin 2) = t.val % 4
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- The left factor's block at point `t` is rows `(t / 4) * 2048 + _`, columns `(t % 4) * 1024 + _` of its array. -/
theorem iblk0_apply (c : Dev nD) (t : Fin cfg1.N) (x : S2048x1024.Idx) (k : S4096x4096.Idx)
    (hk0 : (k 0).val = t.val / 4 * 2048 + (x 0).val) (hk1 : (k 1).val = t.val % 4 * 1024 + (x 1).val) :
    (iblk1 V c 0 t : Vec F S2048x1024 .bf16) x = (V c main_v3 : S4096x4096.Idx → Elt F .bf16) k := by
  obtain ⟨e0, e1, -⟩ := idx_facts t
  unfold iblk1
  rw [View.read_apply]
  show V c main_v3 _ = V c main_v3 _
  congr 1
  funext a
  apply Fin.ext
  match a with
  | ⟨0, _⟩ => show win1_0.index t 0 * 2048 + 1 * (x 0).val = (k 0).val; rw [e0, hk0]; omega
  | ⟨1, _⟩ => show win1_0.index t 1 * 1024 + 1 * (x 1).val = (k 1).val; rw [e1, hk1]; omega

/-- The right factor's block at point `t` is all 1024 rows, columns `(t % 4) * 1024 + _` of its array. -/
theorem iblk1_apply (c : Dev nD) (t : Fin cfg1.N) (x : S1024x1024.Idx) (k : S1024x4096.Idx)
    (hk0 : (k 0).val = (x 0).val) (hk1 : (k 1).val = t.val % 4 * 1024 + (x 1).val) :
    (iblk1 V c 1 t : Vec F S1024x1024 .bf16) x = (V c main_v4 : S1024x4096.Idx → Elt F .bf16) k := by
  obtain ⟨-, -, e0, e1, -⟩ := idx_facts t
  unfold iblk1
  rw [View.read_apply]
  show V c main_v4 _ = V c main_v4 _
  congr 1
  funext a
  apply Fin.ext
  match a with
  | ⟨0, _⟩ => show win1_1.index t 0 * 1024 + 1 * (x 0).val = (k 0).val; rw [e0, hk0]; omega
  | ⟨1, _⟩ => show win1_1.index t 1 * 1024 + 1 * (x 1).val = (k 1).val; rw [e1, hk1]; omega

/-- The bias row's block at every point is the whole 1 x 1024 array. -/
theorem iblk2_apply (c : Dev nD) (t : Fin cfg1.N) (x : S1x1024.Idx) :
    (iblk1 V c 2 t : Vec F S1x1024 .f32) x = (V c main_v5 : S1x1024.Idx → Elt F .f32) x := by
  obtain ⟨-, -, -, -, e0, e1, -⟩ := idx_facts t
  unfold iblk1
  rw [View.read_apply]
  show V c main_v5 _ = V c main_v5 _
  congr 1
  funext a
  apply Fin.ext
  match a with
  | ⟨0, _⟩ => show win1_2.index t 0 * 1 + 1 * (x 0).val = (x 0).val; rw [e0]; omega
  | ⟨1, _⟩ => show win1_2.index t 1 * 1024 + 1 * (x 1).val = (x 1).val; rw [e1]; omega

end Blocks

section Accumulation
variable {F : FTy → Type} [FloatOps F]
variable (V : (c : Dev nD) → (b : Ref sig .tc) → Buf (Elt F) ((c : Thread nD τ).loc b))

/-- After a point with contraction coordinate 0 the accumulator is the zero block plus the point's block product. -/
theorem acc_A (c : Dev nD) (t : Fin cfg1.N) (h0 : t.val % 4 = 0) (h1 : ¬t.val % 4 = 3) :
    (outsAt1 V c t.val t.isLt).2 = k1_pay2 (k1_pay1 (F := F)) (iblk1 V c 0 t) (iblk1 V c 1 t) := by
  rw [outsAt1_A V c t h0 h1]
  dsimp only
  exact sout_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- After any other point it is what the point before left plus the point's block product. -/
theorem acc_BC (c : Dev nD) (t : Fin cfg1.N) (h0 : ¬t.val % 4 = 0) :
    (outsAt1 V c t.val t.isLt).2 = k1_pay2 (outsAt1 V c (t.val - 1) (Nat.lt_of_le_of_lt (Nat.sub_le _ _) t.isLt)).2 (iblk1 V c 0 t) (iblk1 V c 1 t) := by
  by_cases h1 : t.val % 4 = 3
  · rw [outsAt1_C V c t h0 h1]
    dsimp only
    exact sout_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At contraction coordinate 3 the output buffer is left at that accumulator plus the bias row. -/
theorem out_at_C (c : Dev nD) (t : Fin cfg1.N) (h0 : ¬t.val % 4 = 0) (h1 : t.val % 4 = 3) :
    (outsAt1 V c t.val t.isLt).1 = k1_pay3 (k1_pay2 (outsAt1 V c (t.val - 1) (Nat.lt_of_le_of_lt (Nat.sub_le _ _) t.isLt)).2 (iblk1 V c 0 t) (iblk1 V c 1 t)) (iblk1 V c 2 t) := by
  rw [outsAt1_C V c t h0 h1]
  dsimp only
  exact out_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end Accumulation

section Value
variable (V : (c : Dev nD) → (b : Ref sig .tc) → Buf (Elt Ideal) ((c : Thread nD τ).loc b))

/-- the projection of the rows of N by the rows of W, plus the bias row -/
def projG (N : S4096x4096.Idx → EReal) (W : S1024x4096.Idx → EReal) (B : S1x1024.Idx → EReal) : S4096x1024.Idx → EReal :=
  fun j => (∑ k : Fin 4096, N (ix2 (j 0) k) * W (ix2 (j 1) k)) + B (ix2 0 (j 1))

/-- The part of the contraction of row `r` of `N` with row `q` of `W` that lies in column block `kb` (taken mod 4). -/
def blockTerm (N : S4096x4096.Idx → EReal) (W : S1024x4096.Idx → EReal) (r : Fin 4096) (q : Fin 1024) (kb : ℕ) : EReal :=
  ∑ cc : Fin 1024, N (ix2 r ⟨kb % 4 * 1024 + cc.val, by omega⟩) * W (ix2 q ⟨kb % 4 * 1024 + cc.val, by omega⟩)

/-- The accumulator's history within a group of four points: zero plus the first block term, then one more each point. -/
def chain (T : ℕ → EReal) : ℕ → EReal
  | 0 => 0 + T 0
  | k + 1 => chain T k + T (k + 1)

/-- The block product of point `n` at `(p, q)` is the block term of its contraction block, for the row `r` of the array
    that row `p` of the point's row block is. (`x0`, `x1` are the point's two input blocks.) -/
theorem step_term (c : Dev nD) (n : ℕ) (hn : n < cfg1.N) (p : Fin 2048) (q : Fin 1024) (r : Fin 4096)
    (hr : r.val = n / 4 * 2048 + p.val) (x0 : Vec Ideal S2048x1024 .bf16) (x1 : Vec Ideal S1024x1024 .bf16)
    (h0 : x0 = iblk1 V c 0 ⟨n, hn⟩) (h1 : x1 = iblk1 V c 1 ⟨n, hn⟩) :
    (∑ cc : Fin 1024, x0 (ix2 p cc) * x1 (ix2 q cc)) = blockTerm (V c main_v3) (V c main_v4) r q (n % 4) := by
  subst h0 h1
  unfold blockTerm
  refine Finset.sum_congr rfl fun cc _ => ?_
  refine congrArg₂ (· * ·) (iblk0_apply V c ⟨n, hn⟩ (ix2 p cc) (ix2 r ⟨n % 4 % 4 * 1024 + cc.val, by omega⟩) ?_ ?_)
    (iblk1_apply V c ⟨n, hn⟩ (ix2 q cc) (ix2 q ⟨n % 4 % 4 * 1024 + cc.val, by omega⟩) ?_ ?_)
  · show r.val = n / 4 * 2048 + p.val
    exact hr
  · show n % 4 % 4 * 1024 + cc.val = n % 4 * 1024 + cc.val
    omega
  · rfl
  · show n % 4 % 4 * 1024 + cc.val = n % 4 * 1024 + cc.val
    omega

/-- THE ACCUMULATOR after point `n`, at `(p, q)`: the chain of block terms up to the point's contraction block, of the
    array row the point's row block puts at `p`. By induction on the point. -/
theorem acc_eq (c : Dev nD) : ∀ (n : ℕ) (hn : n < cfg1.N) (p : Fin 2048) (q : Fin 1024) (r : Fin 4096),
    r.val = n / 4 * 2048 + p.val →
    ((outsAt1 V c n hn).2 : Vec Ideal S2048x1024 .f32) (ix2 p q) = chain (blockTerm (V c main_v3) (V c main_v4) r q) (n % 4) := by
  intro n
  induction n using Nat.strong_induction_on with
  | _ n ih =>
    intro hn p q r hr
    by_cases h0 : n % 4 = 0
    · have e : (outsAt1 V c n hn).2 = k1_pay2 (k1_pay1 (F := Ideal)) (iblk1 V c 0 ⟨n, hn⟩) (iblk1 V c 1 ⟨n, hn⟩) :=
        acc_A V c ⟨n, hn⟩ h0 (by show ¬n % 4 = 3; omega)
      rw [e, pay2_apply, pay1_apply, step_term V c n hn p q r hr _ _ rfl rfl, h0]
      rfl
    · have e : (outsAt1 V c n hn).2 = k1_pay2 (outsAt1 V c (n - 1) (Nat.lt_of_le_of_lt (Nat.sub_le _ _) hn)).2 (iblk1 V c 0 ⟨n, hn⟩) (iblk1 V c 1 ⟨n, hn⟩) :=
        acc_BC V c ⟨n, hn⟩ h0
      have ih' := ih (n - 1) (by omega) (Nat.lt_of_le_of_lt (Nat.sub_le _ _) hn) p q r (by omega)
      obtain ⟨k, hk1, hk2⟩ : ∃ k, n % 4 = k + 1 ∧ (n - 1) % 4 = k := ⟨n % 4 - 1, by omega, by omega⟩
      rw [e, pay2_apply, step_term V c n hn p q r hr _ _ rfl rfl, ih', hk1, hk2]
      rfl

/-- A chain of four block terms is the whole contraction. -/
theorem chain3_eq (N : S4096x4096.Idx → EReal) (W : S1024x4096.Idx → EReal) (r : Fin 4096) (q : Fin 1024) :
    chain (blockTerm N W r q) 3 = ∑ k : Fin 4096, N (ix2 r k) * W (ix2 q k) := by
  refine Eq.trans ?_ (Cert.Lib.acc4'_blocks_of (fun k : Fin 4096 => N (ix2 r k) * W (ix2 q k))
    (fun kb : Fin 4 => blockTerm N W r q kb.val) (fun kb => ?_))
  · rfl
  · unfold blockTerm
    have hkb : kb.val % 4 = kb.val := Nat.mod_eq_of_lt kb.isLt
    simp only [hkb]

/-- WHAT A WRITING POINT LEAVES in the output buffer, at `(p, q)`: the specification at the array index `(r, q)`. -/
theorem out_value (c : Dev nD) (t : Fin cfg1.N) (h3 : t.val % 4 = 3) (j : S2048x1024.Idx) (i : S4096x1024.Idx)
    (hi0 : (i 0).val = t.val / 4 * 2048 + (j 0).val) (hi1 : (i 1).val = (j 1).val) :
    ((outsAt1 V c t.val t.isLt).1 : Vec Ideal S2048x1024 .f32) j = projG (V c main_v3) (V c main_v4) (V c main_v5) i := by
  obtain ⟨p, q, rfl⟩ : ∃ (p : Fin 2048) (q : Fin 1024), j = ix2 p q := ⟨j 0, j 1, eq_ix2 j⟩
  obtain ⟨r, s, rfl⟩ : ∃ (r : Fin 4096) (s : Fin 1024), i = ix2 r s := ⟨i 0, i 1, eq_ix2 i⟩
  obtain rfl : s = q := Fin.ext hi1
  have hr : r.val = t.val / 4 * 2048 + p.val := hi0
  have h0 : ¬t.val % 4 = 0 := by omega
  have e := out_at_C V c t h0 h3
  have ea := acc_BC V c t h0
  rw [e, pay3_apply, ← ea]
  have hacc := acc_eq V c t.val t.isLt p s r hr
  rw [hacc, h3, chain3_eq]
  show _ + (iblk1 V c 2 t : Vec Ideal S1x1024 .f32) (ix2 (0 : Fin 1) s) = _ + (V c main_v5 : S1x1024.Idx → EReal) (ix2 0 s)
  rw [iblk2_apply V c t (ix2 (0 : Fin 1) s)]

/-- An index of the result array is in point `t`'s block iff each coordinate is in the block's range on its axis. -/
theorem mem_blk3 (t : Fin cfg1.N) (i : S4096x1024.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v6).slice (win1_3.rect t)).set ↔ _
  rw [View.set_slice_whole, Rect.mem_set_unit]
  exact Iff.rfl

/-- WHAT A WRITING POINT WRITES BACK is its block of the specification. -/
theorem flushed_eq (c : Dev nD) (t : Fin cfg1.N) (hf : (cfg1.win 3).flush t = true) :
    (dat1 (F := Ideal) V c).flushed 3 t = ((cfg1.win 3).blk t).view.read (Elt Ideal) (projG (V c main_v3) (V c main_v4) (V c main_v5)) := by
  have h3 : t.val % 4 = 3 := (flush1_3 t).mp hf
  obtain ⟨-, -, -, -, -, -, e0, e1⟩ := idx_facts t
  show (cfg1.win 3).cut (grid1.coords t) ((dat1 (F := Ideal) V c).after 3 t) = _
  rw [after1_3]
  funext j
  refine out_value V c t h3 j _ ?_ ?_
  · show win1_3.index t 0 * 2048 + 1 * (j 0).val = t.val / 4 * 2048 + (j 0).val
    rw [e0]; omega
  · show win1_3.index t 1 * 1024 + 1 * (j 1).val = (j 1).val
    rw [e1]; omega

/-- THE RESULT ARRAY after the region: the specification of the arrays the region is entered with. Row `r` is written
    back by the last point of its row block, `(r / 2048) * 4 + 3`. -/
theorem proj_final (c : Dev nD) :
    (dat1 (F := Ideal) V c).arrAt 3 cfg1.N = projG (V c main_v3) (V c main_v4) (V c main_v5) :=
  (dat1 (F := Ideal) V c).arrAt_eq_of_cover 3 (projG (V c main_v3) (V c main_v4) (V c main_v5)) (flushed_eq V c) fun i => by
    have hN : cfg1.N = 8 := N_1
    have hi0 : (i 0 : Nat) < 4096 := (i 0).isLt
    have hi1 : (i 1 : Nat) < 1024 := (i 1).isLt
    let t : Fin cfg1.N := ⟨(i 0 : Nat) / 2048 * 4 + 3, by rw [hN]; omega⟩
    have ht : t.val = (i 0 : Nat) / 2048 * 4 + 3 := rfl
    obtain ⟨-, -, -, -, -, -, e0, e1⟩ := idx_facts t
    refine ⟨t, (flush1_3 t).mpr (by rw [ht]; omega), ?_⟩
    rw [mem_blk3]
    intro a
    match a with
    | ⟨0, _⟩ =>
      show win1_3.index t 0 * 2048 ≤ (i 0 : Nat) ∧ (i 0 : Nat) < win1_3.index t 0 * 2048 + 2048
      rw [e0, ht]; omega
    | ⟨1, _⟩ =>
      show win1_3.index t 1 * 1024 ≤ (i 1 : Nat) ∧ (i 1 : Nat) < win1_3.index t 1 * 1024 + 1024
      rw [e1]; omega

end Value

end Cert.KernelIdeal.ProjValue

end
-- ==== Proof.Bridge.lean ====
/-
  From the boundaries' contents to the launch memory, at the ideal instance. The first host stretch leaves x and
  hidden untouched, rounds the two weight matrices to bf16 (the identity on extended reals) and reshapes the bias to
  a row; so the array the recurrent-cell region leaves is the specification's new hidden state of the launch arrays.
  The second host stretch rounds the output weights and reshapes the output bias; so the array the projection region
  leaves — the program's result — is the specification's output of that hidden state, the output weights and the
  output bias. A bias read as the one row of its reshape is the bias read as a vector.
-/
import proofs.«114823_j33921651704507_2_alg».proof.Proof.KernelIdeal.Run
import proofs.«114823_j33921651704507_2_alg».proof.Proof.CellValue
import proofs.«114823_j33921651704507_2_alg».proof.Proof.ProjValue
import proofs.«114823_j33921651704507_2_alg».proof.Proof.RnnSpec
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.Bridge

open Cert.KernelIdeal Cert.KernelIdeal.Gen Cert.KernelIdeal.Hand Cert.KernelIdeal.CellValue Cert.KernelIdeal.ProjValue

variable (m : (ℓ : Loc nD τ sig) → Buf (Elt Ideal) ℓ)

/-- The launch arrays, as functions into the extended reals. -/
abbrev a0 (c : Dev nD) : S4096x4096.Idx → EReal := m ((c : Thread nD τ).loc main_arg0)
abbrev a1 (c : Dev nD) : S4096x4096.Idx → EReal := m ((c : Thread nD τ).loc main_arg1)
abbrev a2 (c : Dev nD) : S4096x4096.Idx → EReal := m ((c : Thread nD τ).loc main_arg2)
abbrev a3 (c : Dev nD) : S4096x4096.Idx → EReal := m ((c : Thread nD τ).loc main_arg3)
abbrev a4 (c : Dev nD) : S4096.Idx → EReal := m ((c : Thread nD τ).loc main_arg4)
abbrev a5 (c : Dev nD) : S1024x4096.Idx → EReal := m ((c : Thread nD τ).loc main_arg5)
abbrev a6 (c : Dev nD) : S1024.Idx → EReal := m ((c : Thread nD τ).loc main_arg6)

/-! ## What the first host stretch leaves: x and hidden untouched, the weights rounded (the identity on extended
    reals), the bias as a row -/

theorem V1_arg0 (c : Dev nD) : (Hand.V1 m c main_arg0 : S4096x4096.Idx → EReal) = a0 m c :=
  (StableHlo.after_of_writes_sub hostOps0 _ hostOps0_writes (by decide : main_arg0 ∉ hostOps0_W)).trans rfl
theorem V1_arg1 (c : Dev nD) : (Hand.V1 m c main_arg1 : S4096x4096.Idx → EReal) = a1 m c :=
  (StableHlo.after_of_writes_sub hostOps0 _ hostOps0_writes (by decide : main_arg1 ∉ hostOps0_W)).trans rfl
theorem V1_v0 (c : Dev nD) : (Hand.V1 m c main_v0 : S4096x4096.Idx → EReal) = a2 m c := by
  dsimp only [Hand.V1, Hand.W1]
  after_results
  rfl
theorem V1_v1 (c : Dev nD) : (Hand.V1 m c main_v1 : S4096x4096.Idx → EReal) = a3 m c := by
  dsimp only [Hand.V1, Hand.W1]
  after_results
  rfl
theorem V1_v2 (c : Dev nD) : (Hand.V1 m c main_v2 : S1x4096.Idx → EReal) = shapeCast S1x4096 (a4 m c) shapeCasts_S4096_S1x4096 := by
  dsimp only [Hand.V1, Hand.W1]
  after_results
  rfl

/-- So the array the recurrent-cell region leaves is the new hidden state of the launch arrays. -/
theorem cell_is_newH (c : Dev nD) :
    cellG (Hand.V1 m) c = Cert.Rnn.newH (a0 m c) (a1 m c) (a2 m c) (a3 m c) (a4 m c) := by
  funext j
  obtain ⟨p, q, rfl⟩ : ∃ (p q : Fin 4096), j = ix2 p q := ⟨j 0, j 1, eq_ix2 j⟩
  have h0 : aX (Hand.V1 m) c = a0 m c := V1_arg0 m c
  have h1 : aH (Hand.V1 m) c = a1 m c := V1_arg1 m c
  have h2 : aWx (Hand.V1 m) c = a2 m c := V1_v0 m c
  have h3 : aWh (Hand.V1 m) c = a3 m c := V1_v1 m c
  have h4 : aB (Hand.V1 m) c = shapeCast S1x4096 (a4 m c) shapeCasts_S4096_S1x4096 := V1_v2 m c
  show Ideal.tanh (((∑ k : Fin 4096, aX (Hand.V1 m) c (ix2 p k) * aWx (Hand.V1 m) c (ix2 q k))
        + (∑ k : Fin 4096, aH (Hand.V1 m) c (ix2 p k) * aWh (Hand.V1 m) c (ix2 q k)))
      + aB (Hand.V1 m) c (ix2 (0 : Fin 1) q))
    = Ideal.tanh (((∑ k : Fin 4096, a0 m c (ix2 p k) * a2 m c (ix2 q k)) + (∑ k : Fin 4096, a1 m c (ix2 p k) * a3 m c (ix2 q k))) + a4 m c (ix1 q))
  rw [h0, h1, h2, h3, h4, shapeCast_a_1a_apply]

/-! ## What the projection region is entered with -/

theorem V3_v3 (c : Dev nD) : (Hand.V3 m c main_v3 : S4096x4096.Idx → EReal) = cellG (Hand.V1 m) c :=
  (StableHlo.after_of_writes_sub hostOps1 _ hostOps1_writes (by decide : main_v3 ∉ hostOps1_W)).trans
    ((W2_arr m c 5).trans (cell_final (Hand.V1 m) c))
theorem W2_arg5 (c : Dev nD) : (W2 m c (Proc.devRef .tc main_arg5) : S1024x4096.Idx → EReal) = a5 m c :=
  (W2_of_ne m c main_arg5 (by decide)).trans ((StableHlo.after_of_writes_sub hostOps0 _ hostOps0_writes (by decide : main_arg5 ∉ hostOps0_W)).trans rfl)
theorem W2_arg6 (c : Dev nD) : (W2 m c (Proc.devRef .tc main_arg6) : S1024.Idx → EReal) = a6 m c :=
  (W2_of_ne m c main_arg6 (by decide)).trans ((StableHlo.after_of_writes_sub hostOps0 _ hostOps0_writes (by decide : main_arg6 ∉ hostOps0_W)).trans rfl)
theorem V3_v4 (c : Dev nD) : (Hand.V3 m c main_v4 : S1024x4096.Idx → EReal) = a5 m c := by
  dsimp only [Hand.V3, Hand.W3]
  after_results
  exact W2_arg5 m c
theorem V3_v5 (c : Dev nD) : (Hand.V3 m c main_v5 : S1x1024.Idx → EReal) = shapeCast S1x1024 (a6 m c) shapeCasts_S1024_S1x1024 := by
  dsimp only [Hand.V3, Hand.W3]
  after_results
  rw [W2_arg6]
  rfl

/-! ## The result array -/

/-- The projection of a hidden state N by weights W plus a bias given as a row is the specification's output of N, W
    and the bias as a vector. -/
theorem projG_eq (N : S4096x4096.Idx → EReal) (W : S1024x4096.Idx → EReal) (b : S1024.Idx → EReal) :
    projG N W (shapeCast S1x1024 b shapeCasts_S1024_S1x1024) = Cert.Rnn.outG N W b := by
  funext j
  obtain ⟨p, q, rfl⟩ : ∃ (p : Fin 4096) (q : Fin 1024), j = ix2 p q := ⟨j 0, j 1, eq_ix2 j⟩
  show (∑ k : Fin 4096, N (ix2 p k) * W (ix2 q k)) + shapeCast S1x1024 b shapeCasts_S1024_S1x1024 (ix2 (0 : Fin 1) q)
    = (∑ k : Fin 4096, N (ix2 p k) * W (ix2 q k)) + b (ix1 q)
  rw [shapeCast_a_1a_apply]

/-- The specification's result of the launch arrays. -/
abbrev result (c : Dev nD) : S4096x1024.Idx → EReal :=
  Cert.Rnn.outG (Cert.Rnn.newH (a0 m c) (a1 m c) (a2 m c) (a3 m c) (a4 m c)) (a5 m c) (a6 m c)

/-- What the result array holds at the end: the projection region's array, which is the projection of the cell
    region's array — the specification's result of the launch arrays. -/
theorem kernel_value (c : Dev nD) : (W4 m c (Proc.devRef .tc main_v6) : S4096x1024.Idx → EReal) = result m c := by
  refine (W4_arr m c 3).trans ((proj_final (Hand.V3 m) c).trans ?_)
  have h3 : (Hand.V3 m c main_v3 : S4096x4096.Idx → EReal) = Cert.Rnn.newH (a0 m c) (a1 m c) (a2 m c) (a3 m c) (a4 m c) :=
    (V3_v3 m c).trans (cell_is_newH m c)
  have h4 : (Hand.V3 m c main_v4 : S1024x4096.Idx → EReal) = a5 m c := V3_v4 m c
  have h5 : (Hand.V3 m c main_v5 : S1x1024.Idx → EReal) = shapeCast S1x1024 (a6 m c) shapeCasts_S1024_S1x1024 := V3_v5 m c
  show projG (Hand.V3 m c main_v3 : S4096x4096.Idx → EReal) (Hand.V3 m c main_v4 : S1024x4096.Idx → EReal) (Hand.V3 m c main_v5 : S1x1024.Idx → EReal) = _
  rw [h3, h4, h5]
  exact projG_eq _ _ _

/-- THE KERNEL'S RUN, READ: every execution terminates with the result array at the specification's result of the
    launch arrays, and the seven argument arrays as launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v6 (by decide))).trans (kernel_value m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (Hand.run_main (F := Ideal) m ρ)

end Cert.KernelIdeal.Bridge

end
-- ==== Proof.RnnReference.lean ====
/-
  The reference program computes the specification.

  The reference is eleven whole-array operations: two contractions over the second axis of both factors
  (input with its weights, hidden state with its weights), their sum, the hidden bias broadcast along rows
  and added, `tanh`, a third contraction with the output weights, and the output bias broadcast along rows
  and added. Read at one output index `(b, o)`, each operation is a function of its operands at an index:
  a contraction is the sum over `k` of the left factor at `(row, k)` times the right factor at `(row', k)`,
  a broadcast along rows reads the vector at the column, and the rest act element by element. Composing
  these readings gives, literally,

      sum_k tanh( (sum_k' X[b,k'] * Wx[k,k'] + sum_k' H[b,k'] * Wh[k,k']) + B[k] ) * Wout[o,k]  +  Bout[o],

  which is `outG (newH X H Wx Wh B) Wout Bout` at `(b, o)`. No algebra is needed: only the identification of
  the index functions of the reading lemmas with indices written by their coordinates.
-/
import proofs.«114823_j33921651704507_2_alg».proof.Proof.Gen.ReferenceIdeal.Read
import proofs.«114823_j33921651704507_2_alg».proof.Proof.RnnSpec

noncomputable section

open scoped BigOperators

namespace Cert.Rnn.Ref

open Cert.ReferenceIdeal Cert.ReferenceIdeal.Read Idealize.ShloMosaic Idealize.ShloMosaic.ValueIdx

/-- The left index of the two inner contractions is `(row of the result, k)`. -/
theorem lidx0 (i : S4096x4096.Idx) (k : Fin 4096) : lidx_main_v0 i k = ix2 (i 0) k :=
  funext fun a => Fin.ext (by match a with | ⟨0, _⟩ => rfl | ⟨1, _⟩ => rfl)
/-- The right index of the two inner contractions is `(column of the result, k)`. -/
theorem ridx0 (i : S4096x4096.Idx) (k : Fin 4096) : ridx_main_v0 i k = ix2 (i 1) k :=
  funext fun a => Fin.ext (by match a with | ⟨0, _⟩ => rfl | ⟨1, _⟩ => rfl)
theorem lidx1 (i : S4096x4096.Idx) (k : Fin 4096) : lidx_main_v1 i k = ix2 (i 0) k :=
  funext fun a => Fin.ext (by match a with | ⟨0, _⟩ => rfl | ⟨1, _⟩ => rfl)
theorem ridx1 (i : S4096x4096.Idx) (k : Fin 4096) : ridx_main_v1 i k = ix2 (i 1) k :=
  funext fun a => Fin.ext (by match a with | ⟨0, _⟩ => rfl | ⟨1, _⟩ => rfl)
/-- The hidden bias, broadcast twice, is read at the column. -/
theorem bidx (i : S4096x4096.Idx) : idx_main_v3 (idx_main_v4 i) = ix1 (i 1) :=
  funext fun a => Fin.ext (by match a with | ⟨0, _⟩ => rfl)
/-- The left index of the output contraction is `(row of the result, k)`. -/
theorem lidx7 (i : S4096x1024.Idx) (k : Fin 4096) : lidx_main_v7 i k = ix2 (i 0) k :=
  funext fun a => Fin.ext (by match a with | ⟨0, _⟩ => rfl | ⟨1, _⟩ => rfl)
/-- The right index of the output contraction is `(column of the result, k)`. -/
theorem ridx7 (i : S4096x1024.Idx) (k : Fin 4096) : ridx_main_v7 i k = ix2 (i 1) k :=
  funext fun a => Fin.ext (by match a with | ⟨0, _⟩ => rfl | ⟨1, _⟩ => rfl)
/-- The output bias, broadcast twice, is read at the column. -/
theorem oidx (i : S4096x1024.Idx) : idx_main_v8 (idx_main_v9 i) = ix1 (i 1) :=
  funext fun a => Fin.ext (by match a with | ⟨0, _⟩ => rfl)

/-- The reference's hidden state (its seventh stage) is `newH`. -/
theorem hidden_eq (a0 a1 a2 a3 : FVec Ideal S4096x4096 .f32) (a4 : FVec Ideal S4096 .f32) :
    val_main_v6 (F := Ideal) a0 a1 a2 a3 a4 = Cert.Rnn.newH a0 a1 a2 a3 a4 := by
  funext i
  rw [val_main_v6_apply, val_main_v5_apply, val_main_v2_apply, val_main_v0_apply, val_main_v1_apply,
    val_main_v4_apply, val_main_v3_apply, bidx]
  simp only [lidx0, ridx0, lidx1, ridx1, Ideal.addf_def, Ideal.hostUnary_tanh_def]
  rfl

/-- The reference's result is the specification: the output layer on the new hidden state. -/
theorem reference_eq (a0 a1 a2 a3 : FVec Ideal S4096x4096 .f32) (a4 : FVec Ideal S4096 .f32)
    (a5 : FVec Ideal S1024x4096 .f32) (a6 : FVec Ideal S1024 .f32) :
    val_main_v10 (F := Ideal) a0 a1 a2 a3 a4 a5 a6 = Cert.Rnn.outG (Cert.Rnn.newH a0 a1 a2 a3 a4) a5 a6 := by
  funext i
  rw [val_main_v10_apply, val_main_v7_apply, val_main_v9_apply, val_main_v8_apply, oidx, hidden_eq]
  simp only [lidx7, ridx7, Ideal.addf_def]
  rfl

end Cert.Rnn.Ref

end
-- ==== Proof.lean ====
/-
  The certificate of a fused recurrent cell: a kernel that computes
      new_h = tanh(x Wx^T + hidden Wh^T + B),   out = new_h Wout^T + Bout
  in two tiled matrix-product regions (accumulating over four blocks of 1024 columns in a scratch accumulator, the
  weights rounded to bf16 on the way in, new_h kept in bf16 between the regions) against the same two formulas written
  with whole contractions. Over the extended reals every rounding is the identity and both programs compute, entry by
  entry, the same sums of the same products; they differ only in how the sums are grouped, and sums of extended reals
  may be regrouped freely, so the two results are equal with no assumption on the inputs.

  frame_Kernel, frame_KernelIdeal: the program as four segments (host operations, the cell region, host operations,
    the projection region); each region's invariant carries its accumulator from grid point to grid point at the
    contents the point before left; no segment writes an argument.
  frame_ReferenceIdeal: the reference is eleven host operations; its run with the result dropped.
  preserves_Kernel_KernelIdeal: the idealization rewrote nothing.
  algebraic_KernelIdeal_ReferenceIdeal: both runs end with the result array at one function of the argument arrays,
    out = outG (newH x hidden Wx Wh B) Wout Bout.
-/
import proofs.«114823_j33921651704507_2_alg».proof.Defs
import proofs.«114823_j33921651704507_2_alg».proof.Proof.Gen.Kernel
import proofs.«114823_j33921651704507_2_alg».proof.Proof.Gen.KernelIdeal
import proofs.«114823_j33921651704507_2_alg».proof.Proof.Gen.ReferenceIdeal
import proofs.«114823_j33921651704507_2_alg».proof.Proof.Gen.ReferenceIdeal.Run
import proofs.«114823_j33921651704507_2_alg».proof.Proof.Gen.ReferenceIdeal.Read
import proofs.«114823_j33921651704507_2_alg».proof.Proof.Gen.Pre_finite_inputs
import proofs.«114823_j33921651704507_2_alg».proof.Proof.Kernel.Run
import proofs.«114823_j33921651704507_2_alg».proof.Proof.KernelIdeal.Run
import proofs.«114823_j33921651704507_2_alg».proof.Proof.Bridge
import proofs.«114823_j33921651704507_2_alg».proof.Proof.RnnReference
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's result of the argument arrays: the kernel's by the
    two regions' values, the reference's by reading its eleven operations at an index; the arguments agree. -/
theorem algebraic : Cert.algebraic_KernelIdeal_ReferenceIdeal := by
  intro m ρ m' ρ' _ hagree
  refine ⟨fun c => Cert.KernelIdeal.Bridge.result m c, Cert.KernelIdeal.Bridge.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.Rnn.Ref.reference_eq,
    (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
